-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x64 : Shape := ⟨4, ![8, 16, 1024, 64]⟩
abbrev S8 : Shape := ⟨1, ![8]⟩
abbrev S_ : Shape := ⟨0, ![]⟩

class Facts : Prop where
  bcast_S_S8x16x1024x64 : S_.BroadcastsInDim S8x16x1024x64 (![] : Fin 0 → Fin S8x16x1024x64.rank)
  reducesTo_S8x16x1024x64_S_d0_1_2_3 : S8x16x1024x64.ReducesTo [0, 1, 2, 3] S_
  h_S_ : 0 < S_.numel

variable [Facts]

def fn {F : FTy → Type} [FloatOps F] (main_arg0 : FVec F S8x16x1024x64 .f32) (main_arg1 : FVec F S8x16x1024x64 .f32) (main_arg2 : FVec F S8x16x1024x64 .f32) (main_arg3 : IVec S8 1) : IVec S_ 1 :=
  let main_v0 : FVec F S8x16x1024x64 .f32 := Host.absf main_arg0
  let main_cst : FVec F S_ .f32 := constant S_ .f32 0x7F800000#32
  let main_v1 : FVec F S8x16x1024x64 .f32 := broadcastInDim S8x16x1024x64 ![] bcast_S_S8x16x1024x64 main_cst
  let main_v2 : IVec S8x16x1024x64 1 := cmpf .olt main_v0 main_v1
  let main_c : IVec S_ 1 := constantI S_ 1 1#1
  let main_v3 : IVec S_ 1 := (fun x v => Host.reduce IntOp.andi x v reducesTo_S8x16x1024x64_S_d0_1_2_3 h_S_) main_v2 main_c
  let main_v4 : FVec F S8x16x1024x64 .f32 := Host.absf main_arg1
  let main_cst_0 : FVec F S_ .f32 := constant S_ .f32 0x7F800000#32
  let main_v5 : FVec F S8x16x1024x64 .f32 := broadcastInDim S8x16x1024x64 ![] bcast_S_S8x16x1024x64 main_cst_0
  let main_v6 : IVec S8x16x1024x64 1 := cmpf .olt main_v4 main_v5
  let main_c_1 : IVec S_ 1 := constantI S_ 1 1#1
  let main_v7 : IVec S_ 1 := (fun x v => Host.reduce IntOp.andi x v reducesTo_S8x16x1024x64_S_d0_1_2_3 h_S_) main_v6 main_c_1
  let main_v8 : IVec S_ 1 := andi main_v3 main_v7
  let main_v9 : FVec F S8x16x1024x64 .f32 := Host.absf main_arg2
  let main_cst_2 : FVec F S_ .f32 := constant S_ .f32 0x7F800000#32
  let main_v10 : FVec F S8x16x1024x64 .f32 := broadcastInDim S8x16x1024x64 ![] bcast_S_S8x16x1024x64 main_cst_2
  let main_v11 : IVec S8x16x1024x64 1 := cmpf .olt main_v9 main_v10
  let main_c_3 : IVec S_ 1 := constantI S_ 1 1#1
  let main_v12 : IVec S_ 1 := (fun x v => Host.reduce IntOp.andi x v reducesTo_S8x16x1024x64_S_d0_1_2_3 h_S_) main_v11 main_c_3
  let main_v13 : IVec S_ 1 := andi main_v8 main_v12
  main_v13
-- ==== Kernel.lean ====
abbrev S8x16x1024x64 : Shape := ⟨4, ![8, 16, 1024, 64]⟩
abbrev S8 : Shape := ⟨1, ![8]⟩
abbrev S1x1x256x64 : Shape := ⟨4, ![1, 1, 256, 64]⟩
abbrev S1x1x1024x64 : Shape := ⟨4, ![1, 1, 1024, 64]⟩
abbrev S1 : Shape := ⟨1, ![1]⟩
abbrev S1024x64 : Shape := ⟨2, ![1024, 64]⟩
abbrev S64 : Shape := ⟨1, ![64]⟩
abbrev S1x64 : Shape := ⟨2, ![1, 64]⟩
abbrev S256x64 : Shape := ⟨2, ![256, 64]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 8
  | .smem => 1
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8, .i1⟩
  | .hbm, ⟨4, _⟩ => ⟨S8x16x1024x64, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x256x64, .f32⟩
  | .local _ .vmem, ⟨7, _⟩ => ⟨S1x1x256x64, .f32⟩
  | .local _ .smem, ⟨0, _⟩ => ⟨S8, .i32⟩
  | _, _ => ⟨S8x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 4], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .ne v1 c0_i32
  let v6 : BitVec 32 := Scalar.extui v2
  let c0_i32_1 : BitVec 32 := 0#32
  let v7 : BitVec 1 := Scalar.cmpi .ne v6 c0_i32_1
  v7

def k0_cond2 (v4 : BitVec 32) : BitVec 1 :=
  let c0_i32_0 : BitVec 32 := 0#32
  let v5 : BitVec 1 := Scalar.cmpi .eq v4 c0_i32_0
  let v8 : BitVec 32 := Scalar.extui v5
  let c0_i32_2 : BitVec 32 := 0#32
  let v9 : BitVec 1 := Scalar.cmpi .ne v8 c0_i32_2
  v9

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  natLt_1_32 : 1 < 32
  numel1_S1 : S1.numel = 1
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  reduces_S1024x64_S64 : S1024x64.Reduces [0] S64
  shapeCasts_S64_S1x64 : S64.ShapeCasts S1x64
  shapeCasts_S1x64_S1x64 : S1x64.ShapeCasts S1x64
  broadcasts_S1x64_S256x64 : S1x64.Broadcasts S256x64
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  shapeCasts_S256x64_S1x1x256x64 : S256x64.ShapeCasts S1x1x256x64
  bitsLt_bf16_f32 : FTy.bits .bf16 < FTy.bits .f32
  reduces_S256x1024_S256 : S256x1024.Reduces [1] S256
  shapeCasts_S256_S256x1 : S256.ShapeCasts S256x1
  broadcasts_S256x1_S256x1024 : S256x1.Broadcasts S256x1024
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S8x16x1024x64.size a
  hwx0_0 : ∀ i : grid0.Coords, EltTy.bits .f32 = 32 ∨ (Rect.block (s := S8x16x1024x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x16x1024x64.size a
  hwx0_1 : ∀ i : grid0.Coords, EltTy.bits .f32 = 32 ∨ (Rect.block (s := S8x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x16x1024x64.size a
  hwx0_2 : ∀ i : grid0.Coords, EltTy.bits .f32 = 32 ∨ (Rect.block (s := S8x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x64.size a ≤ S8x16x1024x64.size a
  hwx0_3 : ∀ i : grid0.Coords, EltTy.bits .f32 = 32 ∨ (Rect.block (s := S8x16x1024x64) S1x1x256x64.size (cc0_transform_3 i) (hinb0_3 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev spec0_0 : Pipeline.WinSpec sig grid0.rank :=
  Pipeline.WinSpec.ofSpec (Memref.whole main_arg0) S1x1x256x64.size reads0_0 false false 2 stage0_0 sem0_0 nbuf0_0 hstage0_0

abbrev spec0_1 : Pipeline.WinSpec sig grid0.rank :=
  Pipeline.WinSpec.ofSpec (Memref.whole main_arg1) S1x1x1024x64.size reads0_1 false false 2 stage0_1 sem0_1 nbuf0_1 hstage0_1

abbrev spec0_2 : Pipeline.WinSpec sig grid0.rank :=
  Pipeline.WinSpec.ofSpec (Memref.whole main_arg2) S1x1x1024x64.size reads0_2 false false 2 stage0_2 sem0_2 nbuf0_2 hstage0_2

abbrev spec0_3 : Pipeline.WinSpec sig grid0.rank :=
  Pipeline.WinSpec.ofSpec (Memref.whole main_v1) S1x1x256x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
abbrev idle0 (pf : pre0.Contents (Elt F)) : Fin 4 → grid0.Coords → Bool := fun | 0 => fun _ => false | 1 => fun _ => false | 2 => fun _ => false | 3 => fun i => !(k0_cond1 (pf.atD 0 (k0_off1 i)) == 1#1) && !(k0_cond2 (pf.atD 0 (k0_off1 i)) == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S8x16x1024x64 : Shape := ⟨4, ![8, 16, 1024, 64]⟩
abbrev S8 : Shape := ⟨1, ![8]⟩
abbrev S8x16x1024x1024 : Shape := ⟨4, ![8, 16, 1024, 1024]⟩
abbrev S8x1x1x1 : Shape := ⟨4, ![8, 1, 1, 1]⟩
abbrev S_ : Shape := ⟨0, ![]⟩
abbrev S8x16x1024 : Shape := ⟨3, ![8, 16, 1024]⟩
abbrev S8x16x1024x1 : Shape := ⟨4, ![8, 16, 1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8, .i1⟩
  | .hbm, ⟨4, _⟩ => ⟨S8x16x1024x1024, .f32⟩
  | .hbm, ⟨5, _⟩ => ⟨S8x1x1x1, .i1⟩
  | .hbm, ⟨6, _⟩ => ⟨S_, .f32⟩
  | .hbm, ⟨7, _⟩ => ⟨S8x16x1024x1024, .i1⟩
  | .hbm, ⟨8, _⟩ => ⟨S8x16x1024x1024, .f32⟩
  | .hbm, ⟨9, _⟩ => ⟨S8x16x1024x1024, .f32⟩
  | .hbm, ⟨10, _⟩ => ⟨S_, .f32⟩
  | .hbm, ⟨11, _⟩ => ⟨S8x16x1024x1024, .f32⟩
  | .hbm, ⟨12, _⟩ => ⟨S8x16x1024x1024, .f32⟩
  | .hbm, ⟨13, _⟩ => ⟨S_, .f32⟩
  | .hbm, ⟨14, _⟩ => ⟨S8x16x1024, .f32⟩
  | .hbm, ⟨15, _⟩ => ⟨S_, .f32⟩
  | .hbm, ⟨16, _⟩ => ⟨S8x16x1024, .f32⟩
  | .hbm, ⟨17, _⟩ => ⟨S8x16x1024, .f32⟩
  | .hbm, ⟨18, _⟩ => ⟨S8x16x1024x1, .f32⟩
  | .hbm, ⟨19, _⟩ => ⟨S8x16x1024x1024, .f32⟩
  | .hbm, ⟨20, _⟩ => ⟨S8x16x1024x1024, .f32⟩
  | .hbm, ⟨21, _⟩ => ⟨S8x16x1024x1024, .f32⟩
  | .hbm, ⟨22, _⟩ => ⟨S_, .f32⟩
  | .hbm, ⟨23, _⟩ => ⟨S8x16x1024, .f32⟩
  | .hbm, ⟨24, _⟩ => ⟨S8x16x1024x1, .f32⟩
  | .hbm, ⟨25, _⟩ => ⟨S8x16x1024x1024, .f32⟩
  | .hbm, ⟨26, _⟩ => ⟨S8x16x1024x1024, .f32⟩
  | .hbm, ⟨27, _⟩ => ⟨S8x16x1024x64, .f32⟩
  | _, _ => ⟨S8x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S8_S8x1x1x1_0 : S8.BroadcastsInDim S8x1x1x1 (![0] : Fin 1 → Fin S8x1x1x1.rank)
  bcast_S8x1x1x1_S8x16x1024x1024_0_1_2_3 : S8x1x1x1.BroadcastsInDim S8x16x1024x1024 (![0, 1, 2, 3] : Fin 4 → Fin S8x16x1024x1024.rank)
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.WordRegion.lean ====
/-
  The attention region as its launch finds it, for the program read at any float instance.

  @main first widens the boolean mask (one bit per batch entry) to a table of eight 32-bit words, then enters the
  region. The arrays the region stages blocks of are Q, K, V (read) and the result (written); the widened mask
  is a table the body reads one word of at each grid point — the word of the point's batch coordinate.
  This module names: the buffers' contents at the region's entry; the table read off them and the pipeline at
  that table; that the result's block is written back at every grid point (its block index uses all three grid
  coordinates, so it moves at every step); each window's block at a point; and that each of the three read
  windows' staging buffers holds its block at every point, freshly fetched there or not.
-/
import proofs.«104225_j17239998726826_2_alg».proof.Proof.Gen.Kernel.Launch
import proofs.«104225_j17239998726826_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at the region's entry: the launch contents after the mask has been widened to words. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the widening of the mask followed by the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The widening writes only the table: Q, K, V and the mask itself are found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    exact StableHlo.devRef_ne_of_ne (by decide)))

/-! ## The mask table and the pipeline at it -/

/-- The table of mask words as the region finds it (there is one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No window's block index reads the table, so every table is admissible. -/
abbrev adm : (pcfg0 (F := F)).Adm := ⟨tbl m, trivial⟩
abbrev cfgM : Pipeline.Cfg sig Λ₀ := cfg0 (adm m)

/-- The table as the body is handed it: the whole buffer of eight words. -/
abbrev tbM : Memref sig .tc .smem S8 .i32 := Memref.whole main_v0
abbrev htbM : tbM.IsWhole := Memref.isWhole_whole _

abbrev TbBuf (c : Dev nD) : Type := Buf (Elt F) (tbM.view.loc (c : Thread nD τ))
/-- The body holds the table at half the full share: it may read the words, nothing may overwrite them. -/
abbrev tbPt (c : Dev nD) (f : TbBuf (F := F) c) : sProp 𝕄 :=
  tbM.view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-- The mask word the body loads at grid coordinates `i`, off table contents `xt`: the word of the batch coordinate. -/
abbrev wordOf (c : Dev nD) (i : grid0.Coords) (xt : TbBuf (F := F) c) : Elt F .i32 :=
  tbM.view.readAt (Elt F) (Rect.unit (s := S8) (k0_off1 i) S1.size (k0_off1_inb i)).toLoadRect xt (Shape.Idx.first (numel1_S1.symm ▸ Nat.one_pos))

/-! ## The schedule of the result's window -/

/-- The result's block is written back at every grid point, whatever the table holds. -/
theorem flush_out (a : (pcfg0 (F := F)).Adm) : ∀ t : Fin (cfg0 a).N, ((cfg0 a).win 3).flush t = true :=
  (by decide +kernel : ∀ t : Fin grid0.N, Pipeline.Window.flushOf grid0 true cc0_transform_3 t = true)

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- A read window whose body leaves the block in place holds its block at every point, fetched there or not. -/
theorem before_in0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

abbrev ms0 (t : Fin (cfgM m).N) : Memref sig .tc .vmem S1x1x256x64 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1x1024x64 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1x1024x64 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1x256x64 .f32 := spec0_3.stage ((cfgM m).slots t 3)
abbrev hs3 (t : Fin (cfgM m).N) : (ms3 m t).IsWhole := hstage0_3 (((cfgM m).slots t 3).cast nbuf0_3)

/-- The body as the pipeline calls it at point `t`. -/
abbrev bodyAt (t : Fin (cfgM m).N) : Prog (TpuEff nD τ sig (Elt F) Λ₀ .tc) PUnit :=
  cc0_attn_kernel (grid0.coords t) tbM htbM (ms0 m t) (hs0 m t) (ms1 m t) (hs1 m t) (ms2 m t) (hs2 m t) (ms3 m t) (hs3 m t)

end Cert.Kernel.Attn

end
-- ==== Proof.WordBody.lean ====
/-
  The attention body at one grid point, for the program read at any float instance.

  The body loads the mask word of the point's batch entry and branches on it twice: if the word is nonzero it
  stores into the result's block the column means of the V block (every query row gets the same row); if the
  word is zero it stores the softmax-weighted combination of the V block's rows computed from the Q and K
  blocks. The two conditions are the two sides of one test, so exactly one store happens. Each side is run
  once, symbolically, on arbitrary whole staging buffers; the run itself finds the list of pieces the result's
  buffer ends with, and a second lemma reads that list back as the side's payload of the blocks.
-/
import proofs.«104225_j17239998726826_2_alg».proof.Proof.WordRegion
import Idealize.ShloMosaic.Lib.Pipeline.Value

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions are the two sides of one test -/

/-- A word is nonzero or zero: exactly one of the body's two branches is taken. -/
theorem cond_split (w : BitVec 32) :
    (k0_cond1 w = 1#1 ∧ ¬ k0_cond2 w = 1#1) ∨ (¬ k0_cond1 w = 1#1 ∧ k0_cond2 w = 1#1) := by
  by_cases h : w = 0#32
  · subst h; right; decide
  · left
    have hb : (w == 0#32) = false := by rw [beq_eq_false_iff_ne]; exact h
    have h1 : Scalar.cmpi .ne w 0#32 = 1#1 := by
      unfold Scalar.cmpi IntOp.cmpi; simp only [bne, hb]; decide
    have h2 : Scalar.cmpi .eq w 0#32 = 0#1 := by
      unfold Scalar.cmpi IntOp.cmpi; simp only [hb]; decide
    constructor
    · unfold k0_cond1; simp only [h1]; decide
    · unfold k0_cond2; simp only [h2]; decide

/-! ## The masked side -/

set_option maxHeartbeats 1000000 in
/-- The body on whole staging buffers when the mask word is nonzero: it runs to the end, the three read
    buffers and the table as they were, the result's buffer with the pieces the run found written. -/
noncomputable def runMasked (c : Dev nD) (i : grid0.Coords)
    (arg4 : Memref sig .tc .vmem S1x1x256x64 .f32) (harg4 : arg4.IsWhole) (arg5 : Memref sig .tc .vmem S1x1x1024x64 .f32) (harg5 : arg5.IsWhole)
    (arg6 : Memref sig .tc .vmem S1x1x1024x64 .f32) (harg6 : arg6.IsWhole) (arg7 : Memref sig .tc .vmem S1x1x256x64 .f32) (harg7 : arg7.IsWhole)
    (x0 : Vec F S1x1x256x64 .f32) (x1 x2 : Vec F S1x1x1024x64 .f32) (xt : TbBuf (F := F) c)
    (hc1 : k0_cond1 (wordOf c i xt) = 1#1) (hc2 : ¬ k0_cond2 (wordOf c i xt) = 1#1) :
    { L : List (View.Piece (Elt F) S1x1x256x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ tbPt c xt
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L) ∗ tbPt c xt) -∗ K ⟨⟩))
          ⊢ wp frame (wpE (defs₀ (F := F)) Variants.none c none) E (cc0_attn_kernel i tbM htbM arg4 harg4 arg5 harg5 arg6 harg6 arg7 harg7) K } := by
  refine ⟨?_, fun E K => ?run⟩
  case run =>
    simp only [cc0_attn_kernel_eq_skeleton]; unfold cc0_attn_kernel_skel
    unfold owns
    iintro ⟨⟨%f0, %hf0, H0⟩, ⟨%f1, %hf1, H1⟩, ⟨%f2, %hf2, H2⟩, ⟨%d3, %f3, -, H3⟩, HT, Hk⟩
    obtain rfl := harg4.eq_unread hf0; obtain rfl := harg5.eq_unread hf1; obtain rfl := harg6.eq_unread hf2
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    iexact HT

/-! ## The unmasked side -/

set_option maxHeartbeats 1000000 in
/-- The body on whole staging buffers when the mask word is zero: it runs to the end, the three read
    buffers and the table as they were, the result's buffer with the pieces the run found written. -/
noncomputable def runUnmasked (c : Dev nD) (i : grid0.Coords)
    (arg4 : Memref sig .tc .vmem S1x1x256x64 .f32) (harg4 : arg4.IsWhole) (arg5 : Memref sig .tc .vmem S1x1x1024x64 .f32) (harg5 : arg5.IsWhole)
    (arg6 : Memref sig .tc .vmem S1x1x1024x64 .f32) (harg6 : arg6.IsWhole) (arg7 : Memref sig .tc .vmem S1x1x256x64 .f32) (harg7 : arg7.IsWhole)
    (x0 : Vec F S1x1x256x64 .f32) (x1 x2 : Vec F S1x1x1024x64 .f32) (xt : TbBuf (F := F) c)
    (hc1 : ¬ k0_cond1 (wordOf c i xt) = 1#1) (hc2 : k0_cond2 (wordOf c i xt) = 1#1) :
    { L : List (View.Piece (Elt F) S1x1x256x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ tbPt c xt
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L) ∗ tbPt c xt) -∗ K ⟨⟩))
          ⊢ wp frame (wpE (defs₀ (F := F)) Variants.none c none) E (cc0_attn_kernel i tbM htbM arg4 harg4 arg5 harg5 arg6 harg6 arg7 harg7) K } := by
  refine ⟨?_, fun E K => ?run⟩
  case run =>
    simp only [cc0_attn_kernel_eq_skeleton]; unfold cc0_attn_kernel_skel
    unfold owns
    iintro ⟨⟨%f0, %hf0, H0⟩, ⟨%f1, %hf1, H1⟩, ⟨%f2, %hf2, H2⟩, ⟨%d3, %f3, -, H3⟩, HT, Hk⟩
    obtain rfl := harg4.eq_unread hf0; obtain rfl := harg5.eq_unread hf1; obtain rfl := harg6.eq_unread hf2
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    iexact HT

/-! ## What each side leaves in the result's buffer -/

/-- One staging buffer of the result's window, through which its contents are stated (any would do). -/
abbrev VO : View sig .tc .vmem S1x1x256x64 .f32 := (Memref.whole cc0_stg3_0 : Memref sig .tc .vmem S1x1x256x64 .f32).view

theorem zero_off : (![0, 0, 0, 0] : Fin S1x1x256x64.rank → Nat) = fun _ => 0 := by
  funext a; match a with | ⟨0, _⟩ => rfl | ⟨1, _⟩ => rfl | ⟨2, _⟩ => rfl | ⟨3, _⟩ => rfl
theorem zero_off' : (![0, 0, 0, 0] : Fin S1x1x1024x64.rank → Nat) = fun _ => 0 := by
  funext a; match a with | ⟨0, _⟩ => rfl | ⟨1, _⟩ => rfl | ⟨2, _⟩ => rfl | ⟨3, _⟩ => rfl

theorem coverMasked (c : Dev nD) (i : grid0.Coords) (arg4) (harg4) (arg5) (harg5) (arg6) (harg6) (arg7) (harg7)
    (x0 : Vec F S1x1x256x64 .f32) (x1 x2 : Vec F S1x1x1024x64 .f32) (xt : TbBuf (F := F) c) (hc1) (hc2) (y : S1x1x256x64.Idx) :
    ∃ pc ∈ (runMasked c i arg4 harg4 arg5 harg5 arg6 harg6 arg7 harg7 x0 x1 x2 xt hc1 hc2).1, y ∈ pc.1.set :=
  View.cover_of_wholeMem (runMasked c i arg4 harg4 arg5 harg5 arg6 harg6 arg7 harg7 x0 x1 x2 xt hc1 hc2).1 (by sl_whole_mem) y

theorem coverUnmasked (c : Dev nD) (i : grid0.Coords) (arg4) (harg4) (arg5) (harg5) (arg6) (harg6) (arg7) (harg7)
    (x0 : Vec F S1x1x256x64 .f32) (x1 x2 : Vec F S1x1x1024x64 .f32) (xt : TbBuf (F := F) c) (hc1) (hc2) (y : S1x1x256x64.Idx) :
    ∃ pc ∈ (runUnmasked c i arg4 harg4 arg5 harg5 arg6 harg6 arg7 harg7 x0 x1 x2 xt hc1 hc2).1, y ∈ pc.1.set :=
  View.cover_of_wholeMem (runUnmasked c i arg4 harg4 arg5 harg5 arg6 harg6 arg7 harg7 x0 x1 x2 xt hc1 hc2).1 (by sl_whole_mem) y

/-- With the mask word nonzero the result's buffer ends at the column means of the V block, whatever it held. -/
theorem leftMasked (c : Dev nD) (i : grid0.Coords) (arg4) (harg4) (arg5) (harg5) (arg6) (harg6) (arg7) (harg7)
    (x0 : Vec F S1x1x256x64 .f32) (x1 x2 : Vec F S1x1x1024x64 .f32) (xt : TbBuf (F := F) c) (hc1) (hc2)
    (v : View sig .tc .vmem S1x1x256x64 .f32) (f : v.ty.Contents (Elt F)) :
    v.read (Elt F) (v.writes (Elt F) f (runMasked c i arg4 harg4 arg5 harg5 arg6 harg6 arg7 harg7 x0 x1 x2 xt hc1 hc2).1) = k0_pay1 x2 := by
  rw [View.read_writes_eq_canon _ _ _ (coverMasked c i arg4 harg4 arg5 harg5 arg6 harg6 arg7 harg7 x0 x1 x2 xt hc1 hc2)]
  unfold runMasked
  dsimp only
  rw [View.canon_unit_zero zero_off]
  simp only [View.readAt_eq_ld, harg6.read_unread, View.ld_unit_zero (S := S1x1x1024x64) zero_off']

/-- With the mask word zero it ends at the softmax combination of the V block's rows from the Q and K blocks. -/
theorem leftUnmasked (c : Dev nD) (i : grid0.Coords) (arg4) (harg4) (arg5) (harg5) (arg6) (harg6) (arg7) (harg7)
    (x0 : Vec F S1x1x256x64 .f32) (x1 x2 : Vec F S1x1x1024x64 .f32) (xt : TbBuf (F := F) c) (hc1) (hc2)
    (v : View sig .tc .vmem S1x1x256x64 .f32) (f : v.ty.Contents (Elt F)) :
    v.read (Elt F) (v.writes (Elt F) f (runUnmasked c i arg4 harg4 arg5 harg5 arg6 harg6 arg7 harg7 x0 x1 x2 xt hc1 hc2).1) = k0_pay2 x0 x1 x2 := by
  rw [View.read_writes_eq_canon _ _ _ (coverUnmasked c i arg4 harg4 arg5 harg5 arg6 harg6 arg7 harg7 x0 x1 x2 xt hc1 hc2)]
  unfold runUnmasked
  dsimp only
  rw [View.canon_unit_zero zero_off]
  simp only [View.readAt_eq_ld, harg4.read_unread, harg5.read_unread, harg6.read_unread, View.ld_unit_zero (S := S1x1x1024x64) zero_off',
    View.ld_unit_zero (S := S1x1x256x64) zero_off]

end Cert.Kernel.Attn

end
-- ==== Proof.WordFrame.lean ====
/-
  The attention region's run, for the program read at any float instance.

  Proof data: after the body at a grid point each of the Q, K, V windows' staging buffers still holds its block,
  and the result's holds what the mask word's side of the body stored — the column means of the V block when the
  word is nonzero, the softmax combination otherwise. Nothing is carried between points: the invariant is the
  scoped rest, the generator register and the read-only half of the mask table. The body obligation at a point
  is the run of the side the point's mask word selects; the result's block is written back at every point, so
  what the obligation asks of its buffer is the stated contents whether or not the window counts as idle there.
  The launch then gives the run of @main with each array after it named, and from it the frame: the run ends,
  nothing faults, and Q, K, V and the mask end as launched.
-/
import proofs.«104225_j17239998726826_2_alg».proof.Proof.WordBody

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the result's buffer holds after each point -/

/-- The mask word of point `t`: the table's word at the point's batch coordinate. -/
abbrev wordAt (c : Dev nD) (t : Fin (cfgM m).N) : Elt F .i32 := wordOf c (grid0.coords t) (tbl m 0)

/-- After the body at point `t`: the column means of the V block if the point's mask word is nonzero, else the
    softmax combination of the V block's rows from the Q and K blocks. -/
def outAt (c : Dev nD) (t : Fin (cfgM m).N) : Vec F S1x1x256x64 .f32 :=
  if k0_cond1 (wordAt m c t) = 1#1 then k0_pay1 (iblk m c 2 t) else k0_pay2 (iblk m c 0 t) (iblk m c 1 t) (iblk m c 2 t)

/-! ## The proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = outAt m c t := by dsimp only [dats]; try rfl

theorem before_0 (c : Dev nD) (t : Fin (cfgM m).N) (d) : (dats m 0 c).before 0 t d = iblk m c 0 t :=
  before_in0 m (dats m 0 c) (A_eq m c 0) (after_0 m c) t d
theorem before_1 (c : Dev nD) (t : Fin (cfgM m).N) (d) : (dats m 0 c).before 1 t d = iblk m c 1 t :=
  before_in1 m (dats m 0 c) (A_eq m c 1) (after_1 m c) t d
theorem before_2 (c : Dev nD) (t : Fin (cfgM m).N) (d) : (dats m 0 c).before 2 t d = iblk m c 2 t :=
  before_in2 m (dats m 0 c) (A_eq m c 2) (after_2 m c) t d

/-! ## The body obligation at a generic point -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- What the body returns; the result's buffer as the obligation spells it, by whether the window counts as idle
    at the point and whether the point writes the block back. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ (match (cfgM m).idle 3 ((cfgM m).grid.coords t) with
        | true =>
          match ((cfgM m).win 3).flush t with
          | false => iprop(∃ d, owns (c : Thread nD τ) (ms3 m t) fullShare ((dats m 0 c).before 3 t d))
          | true => owns (c : Thread nD τ) (ms3 m t) fullShare ((dats m 0 c).after 3 t)
        | false => owns (c : Thread nD τ) (ms3 m t) fullShare ((dats m 0 c).after 3 t)))

/-- The result's buffer at the stated contents is what the obligation asks, idle or not: the point writes back. -/
theorem post_out (c : Dev nD) (t : Fin (cfgM m).N) :
    owns (c : Thread nD τ) (ms3 m t) fullShare ((dats m 0 c).after 3 t)
      ⊢ (match (cfgM m).idle 3 ((cfgM m).grid.coords t) with
        | true =>
          match ((cfgM m).win 3).flush t with
          | false => iprop(∃ d, owns (c : Thread nD τ) (ms3 m t) fullShare ((dats m 0 c).before 3 t d))
          | true => owns (c : Thread nD τ) (ms3 m t) fullShare ((dats m 0 c).after 3 t)
        | false => owns (c : Thread nD τ) (ms3 m t) fullShare ((dats m 0 c).after 3 t) : sProp 𝕄) := by
  rw [flush_out (adm m) t]
  cases (cfgM m).idle 3 ((cfgM m).grid.coords t) <;> exact .rfl

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩⟩
  rcases cond_split (wordAt m c t) with ⟨h1, h2⟩ | ⟨h1, h2⟩
  · iapply ((runMasked c (grid0.coords t) _ _ _ _ _ _ _ _ (iblk m c 0 t) (iblk m c 1 t) (iblk m c 2 t) (tbl m 0) h1 h2).2 Set.univ _)
    isplitl [H0]; · iexact H0
    isplitl [H1]; · iexact H1
    isplitl [H2]; · iexact H2
    isplitl [H3]; · iexists _; iexact H3
    isplitl [HT]; · iexact HT
    iintro ⟨H0, H1, H2, ⟨%e3, H3⟩, HT⟩
    isplitl [HΦ HT]
    · isplitl [HΦ]; · iexact HΦ
      iexact HT
    isplitl [Ho]; · iexact Ho
    isplitl [H0]; · iexact H0
    isplitl [H1]; · iexact H1
    isplitl [H2]; · iexact H2
    iapply (post_out m c t)
    rw [after_3]
    unfold owns; iexists _; isplitr
    swap; · iexact H3
    ipureintro
    refine (leftMasked c (grid0.coords t) _ _ _ _ _ _ _ _ (iblk m c 0 t) (iblk m c 1 t) (iblk m c 2 t) (tbl m 0) h1 h2 _ _).trans ?_
    unfold outAt; rw [if_pos h1]
  · iapply ((runUnmasked c (grid0.coords t) _ _ _ _ _ _ _ _ (iblk m c 0 t) (iblk m c 1 t) (iblk m c 2 t) (tbl m 0) h1 h2).2 Set.univ _)
    isplitl [H0]; · iexact H0
    isplitl [H1]; · iexact H1
    isplitl [H2]; · iexact H2
    isplitl [H3]; · iexists _; iexact H3
    isplitl [HT]; · iexact HT
    iintro ⟨H0, H1, H2, ⟨%e3, H3⟩, HT⟩
    isplitl [HΦ HT]
    · isplitl [HΦ]; · iexact HΦ
      iexact HT
    isplitl [Ho]; · iexact Ho
    isplitl [H0]; · iexact H0
    isplitl [H1]; · iexact H1
    isplitl [H2]; · iexact H2
    iapply (post_out m c t)
    rw [after_3]
    unfold owns; iexists _; isplitr
    swap; · iexact H3
    ipureintro
    refine (leftUnmasked c (grid0.coords t) _ _ _ _ _ _ _ _ (iblk m c 0 t) (iblk m c 1 t) (iblk m c 2 t) (tbl m 0) h1 h2 _ _).trans ?_
    unfold outAt; rw [if_neg h1]

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what
    the write-backs made of it and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame: the run ends, nothing faults, and Q, K, V and the mask end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (by decide : main_arg3 ∈ Pipeline.restRefs sig spec0)).trans (V_main_arg3 m c)⟩) (run_main m ρ)

end Cert.Kernel.Attn

end
-- ==== Proof.IdealRegion.lean ====
/-
  The attention region as its launch finds it, for the program read at any float instance.

  @main first widens the boolean mask (one bit per batch entry) to a table of eight 32-bit words, then enters the
  region. The arrays the region stages blocks of are Q, K, V (read) and the result (written); the widened mask
  is a table the body reads one word of at each grid point — the word of the point's batch coordinate.
  This module names: the buffers' contents at the region's entry; the table read off them and the pipeline at
  that table; that the result's block is written back at every grid point (its block index uses all three grid
  coordinates, so it moves at every step); each window's block at a point; and that each of the three read
  windows' staging buffers holds its block at every point, freshly fetched there or not.
-/
import proofs.«104225_j17239998726826_2_alg».proof.Proof.Gen.KernelIdeal.Launch
import proofs.«104225_j17239998726826_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at the region's entry: the launch contents after the mask has been widened to words. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the widening of the mask followed by the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The widening writes only the table: Q, K, V and the mask itself are found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    exact StableHlo.devRef_ne_of_ne (by decide)))

/-! ## The mask table and the pipeline at it -/

/-- The table of mask words as the region finds it (there is one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No window's block index reads the table, so every table is admissible. -/
abbrev adm : (pcfg0 (F := F)).Adm := ⟨tbl m, trivial⟩
abbrev cfgM : Pipeline.Cfg sig Λ₀ := cfg0 (adm m)

/-- The table as the body is handed it: the whole buffer of eight words. -/
abbrev tbM : Memref sig .tc .smem S8 .i32 := Memref.whole main_v0
abbrev htbM : tbM.IsWhole := Memref.isWhole_whole _

abbrev TbBuf (c : Dev nD) : Type := Buf (Elt F) (tbM.view.loc (c : Thread nD τ))
/-- The body holds the table at half the full share: it may read the words, nothing may overwrite them. -/
abbrev tbPt (c : Dev nD) (f : TbBuf (F := F) c) : sProp 𝕄 :=
  tbM.view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-- The mask word the body loads at grid coordinates `i`, off table contents `xt`: the word of the batch coordinate. -/
abbrev wordOf (c : Dev nD) (i : grid0.Coords) (xt : TbBuf (F := F) c) : Elt F .i32 :=
  tbM.view.readAt (Elt F) (Rect.unit (s := S8) (k0_off1 i) S1.size (k0_off1_inb i)).toLoadRect xt (Shape.Idx.first (numel1_S1.symm ▸ Nat.one_pos))

/-! ## The schedule of the result's window -/

/-- The result's block is written back at every grid point, whatever the table holds. -/
theorem flush_out (a : (pcfg0 (F := F)).Adm) : ∀ t : Fin (cfg0 a).N, ((cfg0 a).win 3).flush t = true :=
  (by decide +kernel : ∀ t : Fin grid0.N, Pipeline.Window.flushOf grid0 true cc0_transform_3 t = true)

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- A read window whose body leaves the block in place holds its block at every point, fetched there or not. -/
theorem before_in0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

abbrev ms0 (t : Fin (cfgM m).N) : Memref sig .tc .vmem S1x1x256x64 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1x1024x64 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1x1024x64 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1x256x64 .f32 := spec0_3.stage ((cfgM m).slots t 3)
abbrev hs3 (t : Fin (cfgM m).N) : (ms3 m t).IsWhole := hstage0_3 (((cfgM m).slots t 3).cast nbuf0_3)

/-- The body as the pipeline calls it at point `t`. -/
abbrev bodyAt (t : Fin (cfgM m).N) : Prog (TpuEff nD τ sig (Elt F) Λ₀ .tc) PUnit :=
  cc0_attn_kernel (grid0.coords t) tbM htbM (ms0 m t) (hs0 m t) (ms1 m t) (hs1 m t) (ms2 m t) (hs2 m t) (ms3 m t) (hs3 m t)

end Cert.KernelIdeal.Attn

end
-- ==== Proof.IdealBody.lean ====
/-
  The attention body at one grid point, for the program read at any float instance.

  The body loads the mask word of the point's batch entry and branches on it twice: if the word is nonzero it
  stores into the result's block the column means of the V block (every query row gets the same row); if the
  word is zero it stores the softmax-weighted combination of the V block's rows computed from the Q and K
  blocks. The two conditions are the two sides of one test, so exactly one store happens. Each side is run
  once, symbolically, on arbitrary whole staging buffers; the run itself finds the list of pieces the result's
  buffer ends with, and a second lemma reads that list back as the side's payload of the blocks.
-/
import proofs.«104225_j17239998726826_2_alg».proof.Proof.IdealRegion
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions are the two sides of one test -/

/-- A word is nonzero or zero: exactly one of the body's two branches is taken. -/
theorem cond_split (w : BitVec 32) :
    (k0_cond1 w = 1#1 ∧ ¬ k0_cond2 w = 1#1) ∨ (¬ k0_cond1 w = 1#1 ∧ k0_cond2 w = 1#1) := by
  by_cases h : w = 0#32
  · subst h; right; decide
  · left
    have hb : (w == 0#32) = false := by rw [beq_eq_false_iff_ne]; exact h
    have h1 : Scalar.cmpi .ne w 0#32 = 1#1 := by
      unfold Scalar.cmpi IntOp.cmpi; simp only [bne, hb]; decide
    have h2 : Scalar.cmpi .eq w 0#32 = 0#1 := by
      unfold Scalar.cmpi IntOp.cmpi; simp only [hb]; decide
    constructor
    · unfold k0_cond1; simp only [h1]; decide
    · unfold k0_cond2; simp only [h2]; decide

/-! ## The masked side -/

set_option maxHeartbeats 1000000 in
/-- The body on whole staging buffers when the mask word is nonzero: it runs to the end, the three read
    buffers and the table as they were, the result's buffer with the pieces the run found written. -/
noncomputable def runMasked (c : Dev nD) (i : grid0.Coords)
    (arg4 : Memref sig .tc .vmem S1x1x256x64 .f32) (harg4 : arg4.IsWhole) (arg5 : Memref sig .tc .vmem S1x1x1024x64 .f32) (harg5 : arg5.IsWhole)
    (arg6 : Memref sig .tc .vmem S1x1x1024x64 .f32) (harg6 : arg6.IsWhole) (arg7 : Memref sig .tc .vmem S1x1x256x64 .f32) (harg7 : arg7.IsWhole)
    (x0 : Vec F S1x1x256x64 .f32) (x1 x2 : Vec F S1x1x1024x64 .f32) (xt : TbBuf (F := F) c)
    (hc1 : k0_cond1 (wordOf c i xt) = 1#1) (hc2 : ¬ k0_cond2 (wordOf c i xt) = 1#1) :
    { L : List (View.Piece (Elt F) S1x1x256x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ tbPt c xt
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L) ∗ tbPt c xt) -∗ K ⟨⟩))
          ⊢ wp frame (wpE (defs₀ (F := F)) Variants.none c none) E (cc0_attn_kernel i tbM htbM arg4 harg4 arg5 harg5 arg6 harg6 arg7 harg7) K } := by
  refine ⟨?_, fun E K => ?run⟩
  case run =>
    simp only [cc0_attn_kernel_eq_skeleton]; unfold cc0_attn_kernel_skel
    unfold owns
    iintro ⟨⟨%f0, %hf0, H0⟩, ⟨%f1, %hf1, H1⟩, ⟨%f2, %hf2, H2⟩, ⟨%d3, %f3, -, H3⟩, HT, Hk⟩
    obtain rfl := harg4.eq_unread hf0; obtain rfl := harg5.eq_unread hf1; obtain rfl := harg6.eq_unread hf2
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    iexact HT

/-! ## The unmasked side -/

set_option maxHeartbeats 1000000 in
/-- The body on whole staging buffers when the mask word is zero: it runs to the end, the three read
    buffers and the table as they were, the result's buffer with the pieces the run found written. -/
noncomputable def runUnmasked (c : Dev nD) (i : grid0.Coords)
    (arg4 : Memref sig .tc .vmem S1x1x256x64 .f32) (harg4 : arg4.IsWhole) (arg5 : Memref sig .tc .vmem S1x1x1024x64 .f32) (harg5 : arg5.IsWhole)
    (arg6 : Memref sig .tc .vmem S1x1x1024x64 .f32) (harg6 : arg6.IsWhole) (arg7 : Memref sig .tc .vmem S1x1x256x64 .f32) (harg7 : arg7.IsWhole)
    (x0 : Vec F S1x1x256x64 .f32) (x1 x2 : Vec F S1x1x1024x64 .f32) (xt : TbBuf (F := F) c)
    (hc1 : ¬ k0_cond1 (wordOf c i xt) = 1#1) (hc2 : k0_cond2 (wordOf c i xt) = 1#1) :
    { L : List (View.Piece (Elt F) S1x1x256x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ tbPt c xt
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L) ∗ tbPt c xt) -∗ K ⟨⟩))
          ⊢ wp frame (wpE (defs₀ (F := F)) Variants.none c none) E (cc0_attn_kernel i tbM htbM arg4 harg4 arg5 harg5 arg6 harg6 arg7 harg7) K } := by
  refine ⟨?_, fun E K => ?run⟩
  case run =>
    simp only [cc0_attn_kernel_eq_skeleton]; unfold cc0_attn_kernel_skel
    unfold owns
    iintro ⟨⟨%f0, %hf0, H0⟩, ⟨%f1, %hf1, H1⟩, ⟨%f2, %hf2, H2⟩, ⟨%d3, %f3, -, H3⟩, HT, Hk⟩
    obtain rfl := harg4.eq_unread hf0; obtain rfl := harg5.eq_unread hf1; obtain rfl := harg6.eq_unread hf2
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    iexact HT

/-! ## What each side leaves in the result's buffer -/

/-- One staging buffer of the result's window, through which its contents are stated (any would do). -/
abbrev VO : View sig .tc .vmem S1x1x256x64 .f32 := (Memref.whole cc0_stg3_0 : Memref sig .tc .vmem S1x1x256x64 .f32).view

theorem zero_off : (![0, 0, 0, 0] : Fin S1x1x256x64.rank → Nat) = fun _ => 0 := by
  funext a; match a with | ⟨0, _⟩ => rfl | ⟨1, _⟩ => rfl | ⟨2, _⟩ => rfl | ⟨3, _⟩ => rfl
theorem zero_off' : (![0, 0, 0, 0] : Fin S1x1x1024x64.rank → Nat) = fun _ => 0 := by
  funext a; match a with | ⟨0, _⟩ => rfl | ⟨1, _⟩ => rfl | ⟨2, _⟩ => rfl | ⟨3, _⟩ => rfl

theorem coverMasked (c : Dev nD) (i : grid0.Coords) (arg4) (harg4) (arg5) (harg5) (arg6) (harg6) (arg7) (harg7)
    (x0 : Vec F S1x1x256x64 .f32) (x1 x2 : Vec F S1x1x1024x64 .f32) (xt : TbBuf (F := F) c) (hc1) (hc2) (y : S1x1x256x64.Idx) :
    ∃ pc ∈ (runMasked c i arg4 harg4 arg5 harg5 arg6 harg6 arg7 harg7 x0 x1 x2 xt hc1 hc2).1, y ∈ pc.1.set :=
  View.cover_of_wholeMem (runMasked c i arg4 harg4 arg5 harg5 arg6 harg6 arg7 harg7 x0 x1 x2 xt hc1 hc2).1 (by sl_whole_mem) y

theorem coverUnmasked (c : Dev nD) (i : grid0.Coords) (arg4) (harg4) (arg5) (harg5) (arg6) (harg6) (arg7) (harg7)
    (x0 : Vec F S1x1x256x64 .f32) (x1 x2 : Vec F S1x1x1024x64 .f32) (xt : TbBuf (F := F) c) (hc1) (hc2) (y : S1x1x256x64.Idx) :
    ∃ pc ∈ (runUnmasked c i arg4 harg4 arg5 harg5 arg6 harg6 arg7 harg7 x0 x1 x2 xt hc1 hc2).1, y ∈ pc.1.set :=
  View.cover_of_wholeMem (runUnmasked c i arg4 harg4 arg5 harg5 arg6 harg6 arg7 harg7 x0 x1 x2 xt hc1 hc2).1 (by sl_whole_mem) y

/-- With the mask word nonzero the result's buffer ends at the column means of the V block, whatever it held. -/
theorem leftMasked (c : Dev nD) (i : grid0.Coords) (arg4) (harg4) (arg5) (harg5) (arg6) (harg6) (arg7) (harg7)
    (x0 : Vec F S1x1x256x64 .f32) (x1 x2 : Vec F S1x1x1024x64 .f32) (xt : TbBuf (F := F) c) (hc1) (hc2)
    (v : View sig .tc .vmem S1x1x256x64 .f32) (f : v.ty.Contents (Elt F)) :
    v.read (Elt F) (v.writes (Elt F) f (runMasked c i arg4 harg4 arg5 harg5 arg6 harg6 arg7 harg7 x0 x1 x2 xt hc1 hc2).1) = k0_pay1 x2 := by
  rw [View.read_writes_eq_canon _ _ _ (coverMasked c i arg4 harg4 arg5 harg5 arg6 harg6 arg7 harg7 x0 x1 x2 xt hc1 hc2)]
  unfold runMasked
  dsimp only
  rw [View.canon_unit_zero zero_off]
  simp only [View.readAt_eq_ld, harg6.read_unread, View.ld_unit_zero (S := S1x1x1024x64) zero_off']

/-- With the mask word zero it ends at the softmax combination of the V block's rows from the Q and K blocks. -/
theorem leftUnmasked (c : Dev nD) (i : grid0.Coords) (arg4) (harg4) (arg5) (harg5) (arg6) (harg6) (arg7) (harg7)
    (x0 : Vec F S1x1x256x64 .f32) (x1 x2 : Vec F S1x1x1024x64 .f32) (xt : TbBuf (F := F) c) (hc1) (hc2)
    (v : View sig .tc .vmem S1x1x256x64 .f32) (f : v.ty.Contents (Elt F)) :
    v.read (Elt F) (v.writes (Elt F) f (runUnmasked c i arg4 harg4 arg5 harg5 arg6 harg6 arg7 harg7 x0 x1 x2 xt hc1 hc2).1) = k0_pay2 x0 x1 x2 := by
  rw [View.read_writes_eq_canon _ _ _ (coverUnmasked c i arg4 harg4 arg5 harg5 arg6 harg6 arg7 harg7 x0 x1 x2 xt hc1 hc2)]
  unfold runUnmasked
  dsimp only
  rw [View.canon_unit_zero zero_off]
  simp only [View.readAt_eq_ld, harg4.read_unread, harg5.read_unread, harg6.read_unread, View.ld_unit_zero (S := S1x1x1024x64) zero_off',
    View.ld_unit_zero (S := S1x1x256x64) zero_off]

end Cert.KernelIdeal.Attn

end
-- ==== Proof.IdealFrame.lean ====
/-
  The attention region's run, for the program read at any float instance.

  Proof data: after the body at a grid point each of the Q, K, V windows' staging buffers still holds its block,
  and the result's holds what the mask word's side of the body stored — the column means of the V block when the
  word is nonzero, the softmax combination otherwise. Nothing is carried between points: the invariant is the
  scoped rest, the generator register and the read-only half of the mask table. The body obligation at a point
  is the run of the side the point's mask word selects; the result's block is written back at every point, so
  what the obligation asks of its buffer is the stated contents whether or not the window counts as idle there.
  The launch then gives the run of @main with each array after it named, and from it the frame: the run ends,
  nothing faults, and Q, K, V and the mask end as launched.
-/
import proofs.«104225_j17239998726826_2_alg».proof.Proof.IdealBody

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the result's buffer holds after each point -/

/-- The mask word of point `t`: the table's word at the point's batch coordinate. -/
abbrev wordAt (c : Dev nD) (t : Fin (cfgM m).N) : Elt F .i32 := wordOf c (grid0.coords t) (tbl m 0)

/-- After the body at point `t`: the column means of the V block if the point's mask word is nonzero, else the
    softmax combination of the V block's rows from the Q and K blocks. -/
def outAt (c : Dev nD) (t : Fin (cfgM m).N) : Vec F S1x1x256x64 .f32 :=
  if k0_cond1 (wordAt m c t) = 1#1 then k0_pay1 (iblk m c 2 t) else k0_pay2 (iblk m c 0 t) (iblk m c 1 t) (iblk m c 2 t)

/-! ## The proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = outAt m c t := by dsimp only [dats]; try rfl

theorem before_0 (c : Dev nD) (t : Fin (cfgM m).N) (d) : (dats m 0 c).before 0 t d = iblk m c 0 t :=
  before_in0 m (dats m 0 c) (A_eq m c 0) (after_0 m c) t d
theorem before_1 (c : Dev nD) (t : Fin (cfgM m).N) (d) : (dats m 0 c).before 1 t d = iblk m c 1 t :=
  before_in1 m (dats m 0 c) (A_eq m c 1) (after_1 m c) t d
theorem before_2 (c : Dev nD) (t : Fin (cfgM m).N) (d) : (dats m 0 c).before 2 t d = iblk m c 2 t :=
  before_in2 m (dats m 0 c) (A_eq m c 2) (after_2 m c) t d

/-! ## The body obligation at a generic point -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- What the body returns; the result's buffer as the obligation spells it, by whether the window counts as idle
    at the point and whether the point writes the block back. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ (match (cfgM m).idle 3 ((cfgM m).grid.coords t) with
        | true =>
          match ((cfgM m).win 3).flush t with
          | false => iprop(∃ d, owns (c : Thread nD τ) (ms3 m t) fullShare ((dats m 0 c).before 3 t d))
          | true => owns (c : Thread nD τ) (ms3 m t) fullShare ((dats m 0 c).after 3 t)
        | false => owns (c : Thread nD τ) (ms3 m t) fullShare ((dats m 0 c).after 3 t)))

/-- The result's buffer at the stated contents is what the obligation asks, idle or not: the point writes back. -/
theorem post_out (c : Dev nD) (t : Fin (cfgM m).N) :
    owns (c : Thread nD τ) (ms3 m t) fullShare ((dats m 0 c).after 3 t)
      ⊢ (match (cfgM m).idle 3 ((cfgM m).grid.coords t) with
        | true =>
          match ((cfgM m).win 3).flush t with
          | false => iprop(∃ d, owns (c : Thread nD τ) (ms3 m t) fullShare ((dats m 0 c).before 3 t d))
          | true => owns (c : Thread nD τ) (ms3 m t) fullShare ((dats m 0 c).after 3 t)
        | false => owns (c : Thread nD τ) (ms3 m t) fullShare ((dats m 0 c).after 3 t) : sProp 𝕄) := by
  rw [flush_out (adm m) t]
  cases (cfgM m).idle 3 ((cfgM m).grid.coords t) <;> exact .rfl

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩⟩
  rcases cond_split (wordAt m c t) with ⟨h1, h2⟩ | ⟨h1, h2⟩
  · iapply ((runMasked c (grid0.coords t) _ _ _ _ _ _ _ _ (iblk m c 0 t) (iblk m c 1 t) (iblk m c 2 t) (tbl m 0) h1 h2).2 Set.univ _)
    isplitl [H0]; · iexact H0
    isplitl [H1]; · iexact H1
    isplitl [H2]; · iexact H2
    isplitl [H3]; · iexists _; iexact H3
    isplitl [HT]; · iexact HT
    iintro ⟨H0, H1, H2, ⟨%e3, H3⟩, HT⟩
    isplitl [HΦ HT]
    · isplitl [HΦ]; · iexact HΦ
      iexact HT
    isplitl [Ho]; · iexact Ho
    isplitl [H0]; · iexact H0
    isplitl [H1]; · iexact H1
    isplitl [H2]; · iexact H2
    iapply (post_out m c t)
    rw [after_3]
    unfold owns; iexists _; isplitr
    swap; · iexact H3
    ipureintro
    refine (leftMasked c (grid0.coords t) _ _ _ _ _ _ _ _ (iblk m c 0 t) (iblk m c 1 t) (iblk m c 2 t) (tbl m 0) h1 h2 _ _).trans ?_
    unfold outAt; rw [if_pos h1]
  · iapply ((runUnmasked c (grid0.coords t) _ _ _ _ _ _ _ _ (iblk m c 0 t) (iblk m c 1 t) (iblk m c 2 t) (tbl m 0) h1 h2).2 Set.univ _)
    isplitl [H0]; · iexact H0
    isplitl [H1]; · iexact H1
    isplitl [H2]; · iexact H2
    isplitl [H3]; · iexists _; iexact H3
    isplitl [HT]; · iexact HT
    iintro ⟨H0, H1, H2, ⟨%e3, H3⟩, HT⟩
    isplitl [HΦ HT]
    · isplitl [HΦ]; · iexact HΦ
      iexact HT
    isplitl [Ho]; · iexact Ho
    isplitl [H0]; · iexact H0
    isplitl [H1]; · iexact H1
    isplitl [H2]; · iexact H2
    iapply (post_out m c t)
    rw [after_3]
    unfold owns; iexists _; isplitr
    swap; · iexact H3
    ipureintro
    refine (leftUnmasked c (grid0.coords t) _ _ _ _ _ _ _ _ (iblk m c 0 t) (iblk m c 1 t) (iblk m c 2 t) (tbl m 0) h1 h2 _ _).trans ?_
    unfold outAt; rw [if_neg h1]

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what
    the write-backs made of it and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame: the run ends, nothing faults, and Q, K, V and the mask end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (by decide : main_arg3 ∈ Pipeline.restRefs sig spec0)).trans (V_main_arg3 m c)⟩) (run_main m ρ)

end Cert.KernelIdeal.Attn

end
-- ==== Proof.IdealValue.lean ====
/-
  The result array of the idealized attention program, as one function of Q, K, V and the mask.

  Grid point t has coordinates (b, h, q) with b < 8, h < 16, q < 4. The Q and result windows' block at t is rows
  256 q … 256 q + 255 of slab (b, h); the K and V windows' block is the whole slab (b, h). The mask word at t is
  the widened mask bit of batch entry b, so the body's first branch is taken exactly when that bit is set.
  Hence what point t writes back is, entry by entry, the reference's function of the four arrays read through
  the result's block at t; the blocks of all points tile the array; so the array ends at that function.
-/
import proofs.«104225_j17239998726826_2_alg».proof.Proof.IdealFrame
import proofs.«104225_j17239998726826_2_alg».proof.Proof.Gen.ReferenceIdeal.Read
import Idealize.ShloMosaic.Lib.ValueIdx
import Idealize.ShloMosaic.Lib.StableHlo.Run

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

/-! ## The grid's coordinates and the block indices in closed form -/

theorem small_word (n : Nat) (h : n < 1024) : (BitVec.ofNat 32 n).toNat = n := by
  rw [BitVec.toNat_ofNat]; exact Nat.mod_eq_of_lt (by omega)

/-- The batch, head and query-tile coordinates of a grid point. -/
abbrev cb (t : Fin grid0.N) : Fin 8 := grid0.coords t 0
abbrev ch (t : Fin grid0.N) : Fin 16 := grid0.coords t 1
abbrev cq (t : Fin grid0.N) : Fin 4 := grid0.coords t 2
theorem cb_val (t : Fin grid0.N) : (cb t).val = (grid0.coords t 0).val := rfl
theorem ch_val (t : Fin grid0.N) : (ch t).val = (grid0.coords t 1).val := rfl
theorem cq_val (t : Fin grid0.N) : (cq t).val = (grid0.coords t 2).val := rfl

/-- The Q and result windows' block index: (b, h, q, 0). -/
theorem idx_q (i : grid0.Coords) : cc0_transform_0 i = ![(i 0).val, (i 1).val, (i 2).val, 0] := by
  have h0 : (i 0).val < 8 := (i 0).isLt
  have h1 : (i 1).val < 16 := (i 1).isLt
  have h2 : (i 2).val < 4 := (i 2).isLt
  funext a
  match a with
  | ⟨0, _⟩ => exact small_word _ (by omega)
  | ⟨1, _⟩ => exact small_word _ (by omega)
  | ⟨2, _⟩ => exact small_word _ (by omega)
  | ⟨3, _⟩ => rfl
theorem idx_o (i : grid0.Coords) : cc0_transform_3 i = ![(i 0).val, (i 1).val, (i 2).val, 0] := by
  have h0 : (i 0).val < 8 := (i 0).isLt
  have h1 : (i 1).val < 16 := (i 1).isLt
  have h2 : (i 2).val < 4 := (i 2).isLt
  funext a
  match a with
  | ⟨0, _⟩ => exact small_word _ (by omega)
  | ⟨1, _⟩ => exact small_word _ (by omega)
  | ⟨2, _⟩ => exact small_word _ (by omega)
  | ⟨3, _⟩ => rfl
/-- The K and V windows' block index: (b, h, 0, 0). -/
theorem idx_k (i : grid0.Coords) : cc0_transform_1 i = ![(i 0).val, (i 1).val, 0, 0] := by
  have h0 : (i 0).val < 8 := (i 0).isLt
  have h1 : (i 1).val < 16 := (i 1).isLt
  funext a
  match a with
  | ⟨0, _⟩ => exact small_word _ (by omega)
  | ⟨1, _⟩ => exact small_word _ (by omega)
  | ⟨2, _⟩ => rfl
  | ⟨3, _⟩ => rfl
theorem idx_v (i : grid0.Coords) : cc0_transform_2 i = ![(i 0).val, (i 1).val, 0, 0] := by
  have h0 : (i 0).val < 8 := (i 0).isLt
  have h1 : (i 1).val < 16 := (i 1).isLt
  funext a
  match a with
  | ⟨0, _⟩ => exact small_word _ (by omega)
  | ⟨1, _⟩ => exact small_word _ (by omega)
  | ⟨2, _⟩ => rfl
  | ⟨3, _⟩ => rfl

/-- Row r of query tile q is row 256 q + r of the slab. -/
abbrev rowOf (q : Fin 4) (r : Fin 256) : Fin 1024 := ⟨q.val * 256 + r.val, by omega⟩

/-! ## Where a block's element sits in its array -/

theorem emb_out (t : Fin (cfgM m).N) (r : Fin 256) (d : Fin 64) :
    (((cfgM m).win 3).blk t).view.emb (ix4 (0 : Fin 1) (0 : Fin 1) r d) = ix4 (cb t) (ch t) (rowOf (cq t) r) d := by
  funext a; apply Fin.ext
  match a with
  | ⟨0, _⟩ => show cc0_transform_3 (grid0.coords t) 0 * 1 + 1 * 0 = (cb t).val; rw [idx_o]; show (grid0.coords t 0).val * 1 + 1 * 0 = _; have e0 := cb_val t; have e1 := ch_val t; omega
  | ⟨1, _⟩ => show cc0_transform_3 (grid0.coords t) 1 * 1 + 1 * 0 = (ch t).val; rw [idx_o]; show (grid0.coords t 1).val * 1 + 1 * 0 = _; have e0 := cb_val t; have e1 := ch_val t; omega
  | ⟨2, _⟩ => show cc0_transform_3 (grid0.coords t) 2 * 256 + 1 * r.val = (cq t).val * 256 + r.val; rw [idx_o]; show (grid0.coords t 2).val * 256 + 1 * r.val = _; have e2 := cq_val t; omega
  | ⟨3, _⟩ => show cc0_transform_3 (grid0.coords t) 3 * 64 + 1 * d.val = d.val; rw [idx_o]; show 0 * 64 + 1 * d.val = _; omega

theorem emb_q (t : Fin (cfgM m).N) (r : Fin 256) (d : Fin 64) :
    (((cfgM m).win 0).blk t).view.emb (ix4 (0 : Fin 1) (0 : Fin 1) r d) = ix4 (cb t) (ch t) (rowOf (cq t) r) d := by
  funext a; apply Fin.ext
  match a with
  | ⟨0, _⟩ => show cc0_transform_0 (grid0.coords t) 0 * 1 + 1 * 0 = (cb t).val; rw [idx_q]; show (grid0.coords t 0).val * 1 + 1 * 0 = _; have e0 := cb_val t; have e1 := ch_val t; omega
  | ⟨1, _⟩ => show cc0_transform_0 (grid0.coords t) 1 * 1 + 1 * 0 = (ch t).val; rw [idx_q]; show (grid0.coords t 1).val * 1 + 1 * 0 = _; have e0 := cb_val t; have e1 := ch_val t; omega
  | ⟨2, _⟩ => show cc0_transform_0 (grid0.coords t) 2 * 256 + 1 * r.val = (cq t).val * 256 + r.val; rw [idx_q]; show (grid0.coords t 2).val * 256 + 1 * r.val = _; have e2 := cq_val t; omega
  | ⟨3, _⟩ => show cc0_transform_0 (grid0.coords t) 3 * 64 + 1 * d.val = d.val; rw [idx_q]; show 0 * 64 + 1 * d.val = _; omega

theorem emb_k (t : Fin (cfgM m).N) (k : Fin 1024) (d : Fin 64) :
    (((cfgM m).win 1).blk t).view.emb (ix4 (0 : Fin 1) (0 : Fin 1) k d) = ix4 (cb t) (ch t) k d := by
  funext a; apply Fin.ext
  match a with
  | ⟨0, _⟩ => show cc0_transform_1 (grid0.coords t) 0 * 1 + 1 * 0 = (cb t).val; rw [idx_k]; show (grid0.coords t 0).val * 1 + 1 * 0 = _; have e0 := cb_val t; have e1 := ch_val t; omega
  | ⟨1, _⟩ => show cc0_transform_1 (grid0.coords t) 1 * 1 + 1 * 0 = (ch t).val; rw [idx_k]; show (grid0.coords t 1).val * 1 + 1 * 0 = _; have e0 := cb_val t; have e1 := ch_val t; omega
  | ⟨2, _⟩ => show cc0_transform_1 (grid0.coords t) 2 * 1024 + 1 * k.val = k.val; rw [idx_k]; show 0 * 1024 + 1 * k.val = _; omega
  | ⟨3, _⟩ => show cc0_transform_1 (grid0.coords t) 3 * 64 + 1 * d.val = d.val; rw [idx_k]; show 0 * 64 + 1 * d.val = _; omega

theorem emb_v (t : Fin (cfgM m).N) (k : Fin 1024) (d : Fin 64) :
    (((cfgM m).win 2).blk t).view.emb (ix4 (0 : Fin 1) (0 : Fin 1) k d) = ix4 (cb t) (ch t) k d := by
  funext a; apply Fin.ext
  match a with
  | ⟨0, _⟩ => show cc0_transform_2 (grid0.coords t) 0 * 1 + 1 * 0 = (cb t).val; rw [idx_v]; show (grid0.coords t 0).val * 1 + 1 * 0 = _; have e0 := cb_val t; have e1 := ch_val t; omega
  | ⟨1, _⟩ => show cc0_transform_2 (grid0.coords t) 1 * 1 + 1 * 0 = (ch t).val; rw [idx_v]; show (grid0.coords t 1).val * 1 + 1 * 0 = _; have e0 := cb_val t; have e1 := ch_val t; omega
  | ⟨2, _⟩ => show cc0_transform_2 (grid0.coords t) 2 * 1024 + 1 * k.val = k.val; rw [idx_v]; show 0 * 1024 + 1 * k.val = _; omega
  | ⟨3, _⟩ => show cc0_transform_2 (grid0.coords t) 3 * 64 + 1 * d.val = d.val; rw [idx_v]; show 0 * 64 + 1 * d.val = _; omega

/-! ## The blocks are the arrays read at those places -/

theorem qblk_apply (c : Dev nD) (t : Fin (cfgM m).N) (r : Fin 256) (d : Fin 64) :
    iblk m c 0 t (ix4 (0 : Fin 1) (0 : Fin 1) r d) = m ((c.tc : Thread nD τ).loc main_arg0) (ix4 (cb t) (ch t) (rowOf (cq t) r) d) := by
  show V m c main_arg0 ((((cfgM m).win 0).blk t).view.emb (ix4 (0 : Fin 1) (0 : Fin 1) r d)) = _
  rw [V_main_arg0, emb_q]
theorem kblk_apply (c : Dev nD) (t : Fin (cfgM m).N) (k : Fin 1024) (d : Fin 64) :
    iblk m c 1 t (ix4 (0 : Fin 1) (0 : Fin 1) k d) = m ((c.tc : Thread nD τ).loc main_arg1) (ix4 (cb t) (ch t) k d) := by
  show V m c main_arg1 ((((cfgM m).win 1).blk t).view.emb (ix4 (0 : Fin 1) (0 : Fin 1) k d)) = _
  rw [V_main_arg1, emb_k]
theorem vblk_apply (c : Dev nD) (t : Fin (cfgM m).N) (k : Fin 1024) (d : Fin 64) :
    iblk m c 2 t (ix4 (0 : Fin 1) (0 : Fin 1) k d) = m ((c.tc : Thread nD τ).loc main_arg2) (ix4 (cb t) (ch t) k d) := by
  show V m c main_arg2 ((((cfgM m).win 2).blk t).view.emb (ix4 (0 : Fin 1) (0 : Fin 1) k d)) = _
  rw [V_main_arg2, emb_v]

/-! ## The mask word of a point is the widened mask bit of its batch entry -/

/-- Widening a bit and testing the word against zero recovers the bit. -/
theorem cond_bit : ∀ w : BitVec 1, (k0_cond1 (w.setWidth 32) = 1#1 ↔ w = 1#1) := by decide

theorem table_eq : (tbl m 0 : S8.Idx → BitVec 32) = extui 32 (m (((0 : Dev nD).tc : Thread nD τ).loc main_arg3)) natLt_1_32 := by
  unfold tbl; dsimp only [V, hostOps0]; after_results; rfl

theorem word_eq (c : Dev nD) (t : Fin (cfgM m).N) :
    wordAt m c t = (m ((c.tc : Thread nD τ).loc main_arg3) (ix1 (cb t))).setWidth 32 := by
  obtain rfl : c = 0 := Subsingleton.elim _ _
  show (tbl m 0 : S8.Idx → BitVec 32) ((Rect.unit (s := S8) (k0_off1 (grid0.coords t)) S1.size (k0_off1_inb (grid0.coords t))).emb (Shape.Idx.first (numel1_S1.symm ▸ Nat.one_pos))) = _
  rw [table_eq]
  show (m (((0 : Dev nD).tc : Thread nD τ).loc main_arg3) _).setWidth 32 = _
  congr 2
  funext a; apply Fin.ext
  match a with
  | ⟨0, _⟩ =>
    show (k0_off1 (grid0.coords t)) 0 + 1 * 0 = (cb t).val
    have h0 : (grid0.coords t 0).val < 8 := (grid0.coords t 0).isLt
    show (Scalar.indexCast (BitVec.ofNat 32 (grid0.coords t 0).val)).toNat + 1 * 0 = _
    unfold Scalar.indexCast
    simp only [BitVec.toNat_setWidth, BitVec.toNat_ofNat]
    have e0 := cb_val t
    omega

/-! ## The result's blocks tile the array -/

/-- Every (batch, head, query tile) is the coordinates of a grid point: point 64 b + 4 h + q. -/
theorem coords_onto (b : Fin 8) (h : Fin 16) (q : Fin 4) :
    ∃ t : Fin grid0.N, (grid0.coords t 0).val = b.val ∧ (grid0.coords t 1).val = h.val ∧ (grid0.coords t 2).val = q.val := by
  have hb := b.isLt; have hh := h.isLt; have hq := q.isLt
  refine ⟨⟨b.val * 64 + h.val * 4 + q.val, by rw [N_0]; omega⟩, ?_, ?_, ?_⟩
  · show (b.val * 64 + h.val * 4 + q.val) / grid0.stride 0 % grid0.bound 0 = b.val
    rw [show grid0.stride 0 = 64 from by decide, show grid0.bound 0 = 8 from rfl]; omega
  · show (b.val * 64 + h.val * 4 + q.val) / grid0.stride 1 % grid0.bound 1 = h.val
    rw [show grid0.stride 1 = 4 from by decide, show grid0.bound 1 = 16 from rfl]; omega
  · show (b.val * 64 + h.val * 4 + q.val) / grid0.stride 2 % grid0.bound 2 = q.val
    rw [show grid0.stride 2 = 1 from by decide, show grid0.bound 2 = 4 from rfl]; omega

/-- Every index of the result array lies in the block some point writes back: index (b, h, s, d) is element
    (s mod 256, d) of the block of the point with coordinates (b, h, s / 256). -/
theorem covered (i : S8x16x1024x64.Idx) :
    ∃ t : Fin (cfgM m).N, ((cfgM m).win 3).flush t = true ∧ i ∈ (((cfgM m).win 3).blk t).view.set := by
  have hi0 : (i 0).val < 8 := (i 0).isLt
  have hi1 : (i 1).val < 16 := (i 1).isLt
  have hi2 : (i 2).val < 1024 := (i 2).isLt
  have hi3 : (i 3).val < 64 := (i 3).isLt
  obtain ⟨t, e0, e1, e2⟩ := coords_onto ⟨(i 0).val, hi0⟩ ⟨(i 1).val, hi1⟩ ⟨(i 2).val / 256, by omega⟩
  refine ⟨t, flush_out (adm m) t, ?_⟩
  have hi : i = (((cfgM m).win 3).blk t).view.emb (ix4 (0 : Fin 1) (0 : Fin 1) (⟨(i 2).val % 256, by omega⟩ : Fin 256) (⟨(i 3).val, hi3⟩ : Fin 64)) := by
    rw [emb_out]
    funext a; apply Fin.ext
    have c0 := cb_val t; have c1 := ch_val t; have c2 := cq_val t
    simp only at e0 e1 e2
    match a with
    | ⟨0, _⟩ => show (i 0).val = (cb t).val; omega
    | ⟨1, _⟩ => show (i 1).val = (ch t).val; omega
    | ⟨2, _⟩ => show (i 2).val = (cq t).val * 256 + (i 2).val % 256; omega
    | ⟨3, _⟩ => rfl
  rw [hi]
  exact (((cfgM m).win 3).blk t).view.emb_mem_set _

/-! ## What a point writes back, and the array after the run -/

/-- The reference's result as one function of the four argument arrays, at the launch contents. -/
abbrev G (c : Dev nD) : S8x16x1024x64.Idx → EReal :=
  Cert.ReferenceIdeal.Read.val_main_v16 (F := Ideal) (m ((c.tc : Thread nD τ).loc main_arg0)) (m ((c.tc : Thread nD τ).loc main_arg1))
    (m ((c.tc : Thread nD τ).loc main_arg2)) (m ((c.tc : Thread nD τ).loc main_arg3))

/-- A one-bit word is 0 or 1. -/
theorem bit_cases : ∀ w : BitVec 1, ¬ w = 1#1 → w = 0#1 := by decide

section WriteBack

variable (hU : ∀ (a0 a1 a2 : (⟨S8x16x1024x64, .f32⟩ : BufTy).Contents (Elt Ideal)) (a3 : (⟨S8, .i1⟩ : BufTy).Contents (Elt Ideal)) (b : Fin 8) (h : Fin 16) (q : Fin 4)
    (x0 : Vec Ideal S1x1x256x64 .f32) (x1 x2 : Vec Ideal S1x1x1024x64 .f32)
    (hx0 : ∀ (r : Fin 256) (d : Fin 64), x0 (ix4 (0 : Fin 1) (0 : Fin 1) r d) = a0 (ix4 b h (rowOf q r) d))
    (hx1 : ∀ (k : Fin 1024) (d : Fin 64), x1 (ix4 (0 : Fin 1) (0 : Fin 1) k d) = a1 (ix4 b h k d))
    (hx2 : ∀ (k : Fin 1024) (d : Fin 64), x2 (ix4 (0 : Fin 1) (0 : Fin 1) k d) = a2 (ix4 b h k d))
    (hm : a3 (ix1 b) = 0#1) (r : Fin 256) (d : Fin 64),
    k0_pay2 (F := Ideal) x0 x1 x2 (ix4 (0 : Fin 1) (0 : Fin 1) r d) = Cert.ReferenceIdeal.Read.val_main_v16 (F := Ideal) a0 a1 a2 a3 (ix4 b h (rowOf q r) d))
  (hM : ∀ (a0 a1 a2 : (⟨S8x16x1024x64, .f32⟩ : BufTy).Contents (Elt Ideal)) (a3 : (⟨S8, .i1⟩ : BufTy).Contents (Elt Ideal)) (b : Fin 8) (h : Fin 16) (q : Fin 4)
    (x2 : Vec Ideal S1x1x1024x64 .f32)
    (hx2 : ∀ (k : Fin 1024) (d : Fin 64), x2 (ix4 (0 : Fin 1) (0 : Fin 1) k d) = a2 (ix4 b h k d))
    (hm : a3 (ix1 b) = 1#1) (hfin : ∀ i, ∃ v : ℝ, a2 i = (v : EReal)) (r : Fin 256) (d : Fin 64),
    k0_pay1 (F := Ideal) x2 (ix4 (0 : Fin 1) (0 : Fin 1) r d) = Cert.ReferenceIdeal.Read.val_main_v16 (F := Ideal) a0 a1 a2 a3 (ix4 b h (rowOf q r) d))
  (hfin : ∀ (c : Dev nD) (i : S8x16x1024x64.Idx), ∃ v : ℝ, m ((c.tc : Thread nD τ).loc main_arg2) i = (v : EReal))

include hU hM hfin in
/-- What point `t` writes back is the reference's function of the arrays read through the result's block at `t`. -/
theorem flushed_eq (c : Dev nD) (t : Fin (cfgM m).N) :
    (dats m 0 c).flushed 3 t = (((cfgM m).win 3).blk t).view.read (Elt Ideal) (G m c) := by
  show ((cfgM m).win 3).cut (grid0.coords t) ((dats m 0 c).after 3 t) = _
  rw [after_3]
  funext (y : S1x1x256x64.Idx)
  have h0 : y 0 = (0 : Fin 1) := Fin.ext (show (y 0).val = 0 from by have h : (y 0).val < 1 := (y 0).isLt; omega)
  have h1 : y 1 = (0 : Fin 1) := Fin.ext (show (y 1).val = 0 from by have h : (y 1).val < 1 := (y 1).isLt; omega)
  obtain ⟨r, d, rfl⟩ : ∃ (r : Fin 256) (d : Fin 64), y = ix4 (0 : Fin 1) (0 : Fin 1) r d :=
    ⟨y 2, y 3, (eq_ix4 y).trans (by rw [h0, h1]; rfl)⟩
  show outAt m c t (ix4 (0 : Fin 1) (0 : Fin 1) r d) = G m c ((((cfgM m).win 3).blk t).view.emb (ix4 (0 : Fin 1) (0 : Fin 1) r d))
  rw [emb_out]
  unfold outAt
  by_cases hc : k0_cond1 (wordAt m c t) = 1#1
  · rw [if_pos hc]
    have hbit : m ((c.tc : Thread nD τ).loc main_arg3) (ix1 (cb t)) = 1#1 := (cond_bit _).mp (by rw [← word_eq]; exact hc)
    exact hM _ _ _ _ (cb t) (ch t) (cq t) (iblk m c 2 t) (vblk_apply m c t) hbit (hfin c) r d
  · rw [if_neg hc]
    have hbit : m ((c.tc : Thread nD τ).loc main_arg3) (ix1 (cb t)) = 0#1 :=
      bit_cases _ (fun h => hc (by rw [word_eq]; exact (cond_bit _).mpr h))
    exact hU _ _ _ _ (cb t) (ch t) (cq t) (iblk m c 0 t) (iblk m c 1 t) (iblk m c 2 t) (qblk_apply m c t) (kblk_apply m c t) (vblk_apply m c t) hbit r d

include hU hM hfin in
/-- The result array after the run is the reference's function of the launch arrays. -/
theorem final (c : Dev nD) : (dats m 0 c).arrAt 3 (cfgM m).N = G m c :=
  (dats m 0 c).arrAt_eq_of_cover 3 (G m c) (fun t _ => flushed_eq m hU hM hfin c t) (covered m)

include hU hM hfin in
/-- The run of the idealized program with its result named: every execution ends with the result array at the
    reference's function of the launch arrays, and Q, K, V and the mask as launched. -/
theorem run : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans (final m hU hM hfin c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (by decide : main_arg3 ∈ Pipeline.restRefs sig spec0)).trans (V_main_arg3 m c)⟩) (run_main m ρ)

end WriteBack

end Cert.KernelIdeal.Attn

end
-- ==== Proof.UnmaskedSpec.lean ====
/-
  One query row of scaled-dot-product attention over the extended reals, as a function of the row's
  64 query entries and of the 1024 x 64 key and value matrices: scaled scores, their maximum as a fold of
  `max` from a given bottom value, the exponentials of the shifted scores, their sum, the quotients, and
  the weighted sum of the value rows. Both programs are read against this one function.
-/
import Idealize.ShloMosaic.PureOps.Ideal
import Idealize.ShloMosaic.PureOps.Ideal.Laws
import Mathlib.Data.Finset.Fold

noncomputable section

open scoped BigOperators

namespace Cert.Attn.Unmasked

open Idealize.ShloMosaic

/-- The scaled score of the query row `q` against key row `k`: `(∑_d q d * K k d) * c`. -/
def score (c : EReal) (q : Fin 64 → EReal) (K : Fin 1024 → Fin 64 → EReal) (k : Fin 1024) : EReal :=
  (∑ d : Fin 64, q d * K k d) * c

/-- The maximum of a row of scores, folded from `ninf`. -/
def rowMax (ninf : EReal) (s : Fin 1024 → EReal) : EReal :=
  (Finset.univ : Finset (Fin 1024)).fold max ninf s

/-- The exponential of a score shifted by the row's maximum. -/
def expw (ninf : EReal) (s : Fin 1024 → EReal) (k : Fin 1024) : EReal :=
  Ideal.exp (s k - rowMax ninf s)

/-- The softmax weight of key `k`. -/
def weight (ninf : EReal) (s : Fin 1024 → EReal) (k : Fin 1024) : EReal :=
  Ideal.div (expw ninf s k) (∑ k' : Fin 1024, expw ninf s k')

/-- The attention output of the row at feature `d`. -/
def attnRow (c ninf : EReal) (q : Fin 64 → EReal) (K V : Fin 1024 → Fin 64 → EReal) (d : Fin 64) : EReal :=
  ∑ k : Fin 1024, weight ninf (score c q K) k * V k d

/-- Folding `max` from `b` never goes below `b`, so taking `max b` of the fold changes nothing. -/
theorem max_rowMax (ninf : EReal) (s : Fin 1024 → EReal) : max ninf (rowMax ninf s) = rowMax ninf s :=
  max_eq_right ((Finset.le_fold_max (s := Finset.univ) (f := s) (b := ninf) (c := ninf)).mpr (Or.inl le_rfl))

end Cert.Attn.Unmasked

end
-- ==== Proof.UnmaskedRef.lean ====
/-
  The reference read at one output element (b, h, row, d) when the batch's mask word is zero: the select
  keeps the scores, and the chain of operations (scale, maximum over the keys, exponential of the shifted
  scores, their sum, the quotient, the product with the values) is the attention row of the spec module
  applied to row `row` of the queries and to the key and value matrices of (b, h).
-/
import proofs.«104225_j17239998726826_2_alg».proof.Proof.Gen.ReferenceIdeal.Read
import proofs.«104225_j17239998726826_2_alg».proof.Proof.UnmaskedSpec
import Idealize.ShloMosaic.Lib.Pipeline.Value
import Idealize.ShloMosaic.Lib.ValueIdx
import Idealize.ShloMosaic.PureOps.Ideal.Laws

noncomputable section

open scoped BigOperators

namespace Cert.Attn.Unmasked.Ref

open Cert.ReferenceIdeal Cert.ReferenceIdeal.Gen Cert.ReferenceIdeal.Read Idealize.ShloMosaic Idealize.ShloMosaic.ValueIdx

variable (a0 a1 a2 : (⟨S8x16x1024x64, .f32⟩ : BufTy).Contents (Elt Ideal)) (a3 : (⟨S8, .i1⟩ : BufTy).Contents (Elt Ideal))
variable (b : Fin 8) (h : Fin 16) (row : Fin 1024)

/-- The scaled scores of the row, at key `k`: with the mask word zero the select keeps the product. -/
theorem scores_at (hm : a3 (ix1 b) = 0#1) (k : Fin 1024) :
    val_main_v4 (F := Ideal) a0 a1 a3 (ix4 b h row k)
      = score (Ideal.ofBits .f32 0x3E000000#32) (fun d => a0 (ix4 b h row d)) (fun k d => a1 (ix4 b h k d)) k := by
  have e : idx_main_v1 (idx_main_call0_v0 (ix4 b h row k)) = ix1 b :=
    funext fun a => Fin.ext (by match a with | ⟨0, _⟩ => rfl)
  have el : ∀ d : Fin 64, lidx_main_v0 (ix4 b h row k) d = ix4 b h row d := fun d =>
    funext fun a => Fin.ext (by match a with | ⟨0, _⟩ => rfl | ⟨1, _⟩ => rfl | ⟨2, _⟩ => rfl | ⟨3, _⟩ => rfl)
  have er : ∀ d : Fin 64, ridx_main_v0 (ix4 b h row k) d = ix4 b h k d := fun d =>
    funext fun a => Fin.ext (by match a with | ⟨0, _⟩ => rfl | ⟨1, _⟩ => rfl | ⟨2, _⟩ => rfl | ⟨3, _⟩ => rfl)
  rw [val_main_v4_apply, val_main_v2_apply, val_main_call0_v0_apply, val_main_v1_apply, e, hm, select_zero,
    val_main_v0_apply, val_main_v3_apply, val_main_cst_0_apply]
  unfold score
  simp only [el, er]
  rfl

/-! ## The maximum over the keys -/

theorem reduces_d3 : S8x16x1024x1024.Reduces [3] S8x16x1024 := by decide

/-- The index (b, h, row) with the key coordinate `k` put back is (b, h, row, k). -/
theorem lift_key (hr : S8x16x1024x1024.Reduces [3] S8x16x1024) (k : Fin 1024) :
    hr.lift (ix3 b h row) k = ix4 b h row k := by
  funext a
  match a with
  | ⟨0, _⟩ => exact Fin.ext rfl
  | ⟨1, _⟩ => exact Fin.ext rfl
  | ⟨2, _⟩ => exact Fin.ext rfl
  | ⟨3, _⟩ => exact Fin.ext rfl

/-- The row's maximum: the host's fold from the bottom word, and the `max` with that word after it. -/
theorem max_at (hm : a3 (ix1 b) = 0#1) :
    val_main_v7 (F := Ideal) a0 a1 a3 (ix3 b h row)
      = rowMax (Ideal.ofBits .f32 0xFF800000#32)
          (score (Ideal.ofBits .f32 0x3E000000#32) (fun d => a0 (ix4 b h row d)) (fun k d => a1 (ix4 b h k d))) := by
  have hS : (fun k => val_main_v4 (F := Ideal) a0 a1 a3 (ix4 b h row k))
      = score (Ideal.ofBits .f32 0x3E000000#32) (fun d => a0 (ix4 b h row d)) (fun k d => a1 (ix4 b h k d)) :=
    funext (scores_at a0 a1 a3 b h row hm)
  rw [val_main_v7_apply, val_main_v6_apply, val_main_cst_2_apply]
  unfold val_main_v5
  generalize val_main_v4 (F := Ideal) a0 a1 a3 = y at hS ⊢
  have hred := Host.reduce_eq_fold_single (FloatOps.maximumf (F := Ideal) (φ := .f32)) y (val_main_cst_1 (F := Ideal))
    reducesTo_S8x16x1024x1024_S8x16x1024_d3 reduces_d3 h_S_ (ix3 b h row)
  have hfold : (Finset.univ : Finset (Fin (S8x16x1024x1024.size 3))).fold (FloatOps.maximumf (F := Ideal) (φ := .f32))
        (val_main_cst_1 (F := Ideal) (Shape.Idx.first h_S_)) (y ∘ reduces_d3.lift (ix3 b h row))
      = rowMax (Ideal.ofBits .f32 0xFF800000#32) (fun k => y (ix4 b h row k)) := by
    unfold rowMax
    exact congrArg (fun f => (Finset.univ : Finset (Fin 1024)).fold max (Ideal.ofBits .f32 0xFF800000#32) f)
      (funext fun k => congrArg y (lift_key b h row reduces_d3 k))
  refine (congrArg (FloatOps.maximumf (F := Ideal) (φ := .f32) (FloatOps.ofBits .f32 0xFF800000#32)) (hred.trans hfold)).trans ?_
  rw [hS]
  exact max_rowMax _ _

/-! ## The exponentials, their sum, the weights, the output -/

theorem exp_at (hm : a3 (ix1 b) = 0#1) (k : Fin 1024) :
    val_main_v11 (F := Ideal) a0 a1 a3 (ix4 b h row k)
      = expw (Ideal.ofBits .f32 0xFF800000#32)
          (score (Ideal.ofBits .f32 0x3E000000#32) (fun d => a0 (ix4 b h row d)) (fun k d => a1 (ix4 b h k d))) k := by
  have e : idx_main_v8 (idx_main_v9 (ix4 b h row k)) = ix3 b h row :=
    funext fun a => Fin.ext (by match a with | ⟨0, _⟩ => rfl | ⟨1, _⟩ => rfl | ⟨2, _⟩ => rfl)
  rw [val_main_v11_apply, val_main_v10_apply, val_main_v9_apply, val_main_v8_apply, e, max_at a0 a1 a3 b h row hm,
    scores_at a0 a1 a3 b h row hm k]
  rfl

theorem den_at (hm : a3 (ix1 b) = 0#1) :
    val_main_v12 (F := Ideal) a0 a1 a3 (ix3 b h row)
      = ∑ k : Fin 1024, expw (Ideal.ofBits .f32 0xFF800000#32)
          (score (Ideal.ofBits .f32 0x3E000000#32) (fun d => a0 (ix4 b h row d)) (fun k d => a1 (ix4 b h k d))) k := by
  have e : ∀ k : Fin 1024, idx_main_v12 (ix3 b h row) k = ix4 b h row k := fun k =>
    funext fun a => Fin.ext (by match a with | ⟨0, _⟩ => rfl | ⟨1, _⟩ => rfl | ⟨2, _⟩ => rfl | ⟨3, _⟩ => rfl)
  rw [val_main_v12_apply, val_main_cst_3_apply]
  simp only [e, exp_at a0 a1 a3 b h row hm]
  show Ideal.ofBits .f32 0x00000000#32 + _ = _
  rw [Ideal.ofBits_zero_f32, zero_add]

theorem weight_at (hm : a3 (ix1 b) = 0#1) (k : Fin 1024) :
    val_main_v15 (F := Ideal) a0 a1 a3 (ix4 b h row k)
      = weight (Ideal.ofBits .f32 0xFF800000#32)
          (score (Ideal.ofBits .f32 0x3E000000#32) (fun d => a0 (ix4 b h row d)) (fun k d => a1 (ix4 b h k d))) k := by
  have e : idx_main_v13 (idx_main_v14 (ix4 b h row k)) = ix3 b h row :=
    funext fun a => Fin.ext (by match a with | ⟨0, _⟩ => rfl | ⟨1, _⟩ => rfl | ⟨2, _⟩ => rfl)
  rw [val_main_v15_apply, val_main_v14_apply, val_main_v13_apply, e, den_at a0 a1 a3 b h row hm,
    exp_at a0 a1 a3 b h row hm k]
  rfl

/-- The reference's output element (b, h, row, d), with the batch's mask word zero, is the attention row. -/
theorem out_at (hm : a3 (ix1 b) = 0#1) (d : Fin 64) :
    val_main_v16 (F := Ideal) a0 a1 a2 a3 (ix4 b h row d)
      = attnRow (Ideal.ofBits .f32 0x3E000000#32) (Ideal.ofBits .f32 0xFF800000#32)
          (fun d => a0 (ix4 b h row d)) (fun k d => a1 (ix4 b h k d)) (fun k d => a2 (ix4 b h k d)) d := by
  have el : ∀ k : Fin 1024, lidx_main_v16 (ix4 b h row d) k = ix4 b h row k := fun k =>
    funext fun a => Fin.ext (by match a with | ⟨0, _⟩ => rfl | ⟨1, _⟩ => rfl | ⟨2, _⟩ => rfl | ⟨3, _⟩ => rfl)
  have er : ∀ k : Fin 1024, ridx_main_v16 (ix4 b h row d) k = ix4 b h k d := fun k =>
    funext fun a => Fin.ext (by match a with | ⟨0, _⟩ => rfl | ⟨1, _⟩ => rfl | ⟨2, _⟩ => rfl | ⟨3, _⟩ => rfl)
  rw [val_main_v16_apply]
  simp only [el, er, weight_at a0 a1 a3 b h row hm]
  rfl

end Cert.Attn.Unmasked.Ref

end
-- ==== Proof.UnmaskedKernelOps.lean ====
/-
  The non-pointwise operations of the kernel's unmasked payload, each read at an index given by
  coordinates: the two unit leading axes of a block dropped or added by a shape cast, a column of row
  statistics spread over the 1024 keys, a row sum and a row maximum over the key axis, and the two
  matrix products as sums over the contracted coordinate.
-/
import proofs.«104225_j17239998726826_2_alg».proof.Proof.Gen.KernelIdeal.Skeleton
import proofs.«104225_j17239998726826_2_alg».proof.Proof.UnmaskedSpec
import Idealize.ShloMosaic.Lib.Pipeline.Value
import Idealize.ShloMosaic.Lib.ValueIdx
import Idealize.ShloMosaic.PureOps.Ideal.Laws

noncomputable section

open scoped BigOperators

namespace Cert.Attn.Unmasked.Kernel

open Cert.KernelIdeal Cert.KernelIdeal.Gen Idealize.ShloMosaic Idealize.ShloMosaic.ValueIdx

/-! ## Layout -/

/-- A `[1, 1, a, b]` block cast to `[a, b]` reads, at `(i, j)`, the block at `(0, 0, i, j)`. -/
theorem cast_11ab_ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` matrix cast to `[1, 1, a, b]` reads, at `(u, v, i, j)`, the matrix at `(i, j)`. -/
theorem cast_ab_11ab {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector of 256 row statistics, cast to a column and spread over the 1024 keys, reads the row's
    statistic at every key. -/
theorem col_apply {α : Type} (v : S256.Idx → α) (hc : S256.ShapeCasts S256x1) (hb : S256x1.Broadcasts S256x1024)
    (r : Fin 256) (k : Fin 1024) :
    broadcastTo S256x1024 (shapeCast S256x1 v hc) hb (ix2 r k) = v (ix1 r) := by
  refine (broadcastTo_apply (shapeCast S256x1 v hc) hb (ix2 r k) (ix2 r (0 : Fin 1)) fun ax => ?_).trans ?_
  · match ax with
    | ⟨0, _⟩ => show r.val = if (256 : ℕ) = 1 then 0 else r.val; rw [if_neg (by decide)]
    | ⟨1, _⟩ => show 0 = if (1 : ℕ) = 1 then 0 else k.val; rw [if_pos rfl]
  · exact shapeCast_apply v hc _ _ (by
      rw [Shape.rowMajor_val_two, Shape.rowMajor_val_one]
      show r.val = r.val * 1 + 0
      omega)

/-! ## The reductions over the key axis -/

/-- The row index `r` with the key coordinate `k` put back is `(r, k)`. -/
theorem lift_row (h : S256x1024.Reduces [1] S256) (r : Fin 256) (k : Fin 1024) :
    h.lift (ix1 r) k = ix2 r k := by
  funext a
  match a with
  | ⟨0, _⟩ => exact Fin.ext rfl
  | ⟨1, _⟩ => exact Fin.ext rfl

/-- The sum over the keys, at row `r`. -/
theorem rowsum_apply (src : FVec Ideal S256x1024 .f32) (h : S256x1024.Reduces [1] S256) (hφ : FKind.Formats .f32)
    (hacc : (0x00000000#32 : BitVec 32) = FKind.add.neutral .f32 hφ) (r : Fin 256) :
    multiReduction .add [1] S256 src 0x00000000#32 h hφ hacc (ix1 r) = ∑ k : Fin 1024, src (ix2 r k) := by
  refine (Ideal.multiReduction_add_single src _ h hφ hacc (ix1 r)).trans ?_
  exact Finset.sum_congr rfl fun k _ => congrArg src (lift_row h r k)

/-- The maximum over the keys, at row `r`: the fold of `max` from the accumulator's value. -/
theorem rowmax_apply (src : FVec Ideal S256x1024 .f32) (h : S256x1024.Reduces [1] S256) (hφ : FKind.Formats .f32)
    (hacc : (0xFF800000#32 : BitVec 32) = FKind.maximumf.neutral .f32 hφ) (r : Fin 256) :
    multiReduction .maximumf [1] S256 src 0xFF800000#32 h hφ hacc (ix1 r)
      = rowMax (Ideal.ofBits .f32 0xFF800000#32) (fun k => src (ix2 r k)) := by
  refine (Ideal.multiReduction_maximumf_single src _ h hφ hacc (ix1 r)).trans ?_
  unfold rowMax
  exact congrArg (fun f => (Finset.univ : Finset (Fin 1024)).fold max (Ideal.ofBits .f32 0xFF800000#32) f)
    (funext fun k => congrArg src (lift_row h r k))

/-! ## The two matrix products -/

/-! The operand indices of the score product, coordinate by coordinate: output `(r, k)`, contraction `d`. -/
theorem qk_lhs0 (i : S256x1024.Idx) (q : dot_S256x64_S1024x64_S256x1024_1_1_0_0_n_n.contr.Idx) :
    (dot_S256x64_S1024x64_S256x1024_1_1_0_0_n_n.lhsIdx i q 0).val = (i 0).val := by
  unfold DotDims.lhsIdx
  rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
  rfl
theorem qk_lhs1 (i : S256x1024.Idx) (q : dot_S256x64_S1024x64_S256x1024_1_1_0_0_n_n.contr.Idx) :
    (dot_S256x64_S1024x64_S256x1024_1_1_0_0_n_n.lhsIdx i q 1).val = (q ⟨0, by decide⟩).val :=
  dot_S256x64_S1024x64_S256x1024_1_1_0_0_n_n.lhsIdx_val_of_single rfl i q
theorem qk_rhs0 (i : S256x1024.Idx) (q : dot_S256x64_S1024x64_S256x1024_1_1_0_0_n_n.contr.Idx) :
    (dot_S256x64_S1024x64_S256x1024_1_1_0_0_n_n.rhsIdx i q 0).val = (i 1).val := by
  unfold DotDims.rhsIdx
  rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
  rfl
theorem qk_rhs1 (i : S256x1024.Idx) (q : dot_S256x64_S1024x64_S256x1024_1_1_0_0_n_n.contr.Idx) :
    (dot_S256x64_S1024x64_S256x1024_1_1_0_0_n_n.rhsIdx i q 1).val = (q ⟨0, by decide⟩).val :=
  dot_S256x64_S1024x64_S256x1024_1_1_0_0_n_n.rhsIdx_val_of_single rfl i q

/-- Scores: the query block times the transposed key block, at `(r, k)`, is the sum over the 64 features. -/
theorem qk_apply (q : FVec Ideal S256x64 .bf16) (kk : FVec Ideal S1024x64 .bf16) (r : Fin 256) (k : Fin 1024) :
    matmul dot_S256x64_S1024x64_S256x1024_1_1_0_0_n_n none q kk (constant S256x1024 .f32 0x00000000#32) (ix2 r k)
      = ∑ d : Fin 64, q (ix2 r d) * kk (ix2 k d) := by
  simp only [matmul]
  rw [Ideal.matmul_constant_zero_apply, ← Equiv.sum_comp (contrEquiv1 dot_S256x64_S1024x64_S256x1024_1_1_0_0_n_n 64 rfl rfl).symm]
  refine Finset.sum_congr rfl fun d _ => ?_
  have hd := contrEquiv1_symm_val dot_S256x64_S1024x64_S256x1024_1_1_0_0_n_n 64 rfl rfl d
  have el : dot_S256x64_S1024x64_S256x1024_1_1_0_0_n_n.lhsIdx (ix2 r k) ((contrEquiv1 dot_S256x64_S1024x64_S256x1024_1_1_0_0_n_n 64 rfl rfl).symm d) = ix2 r d :=
    funext fun a => Fin.ext (by
      match a with
      | ⟨0, _⟩ => exact qk_lhs0 _ _
      | ⟨1, _⟩ => exact (qk_lhs1 _ _).trans hd)
  have er : dot_S256x64_S1024x64_S256x1024_1_1_0_0_n_n.rhsIdx (ix2 r k) ((contrEquiv1 dot_S256x64_S1024x64_S256x1024_1_1_0_0_n_n 64 rfl rfl).symm d) = ix2 k d :=
    funext fun a => Fin.ext (by
      match a with
      | ⟨0, _⟩ => exact qk_rhs0 _ _
      | ⟨1, _⟩ => exact (qk_rhs1 _ _).trans hd)
  rw [el, er]

/-! The operand indices of the output product: output `(r, d)`, contraction `k`. -/
theorem pv_lhs0 (i : S256x64.Idx) (q : dot_S256x1024_S1024x64_S256x64_1_0_0_1_n_n.contr.Idx) :
    (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem pv_lhs1 (i : S256x64.Idx) (q : dot_S256x1024_S1024x64_S256x64_1_0_0_1_n_n.contr.Idx) :
    (dot_S256x1024_S1024x64_S256x64_1_0_0_1_n_n.lhsIdx i q 1).val = (q ⟨0, by decide⟩).val :=
  dot_S256x1024_S1024x64_S256x64_1_0_0_1_n_n.lhsIdx_val_of_single rfl i q
theorem pv_rhs0 (i : S256x64.Idx) (q : dot_S256x1024_S1024x64_S256x64_1_0_0_1_n_n.contr.Idx) :
    (dot_S256x1024_S1024x64_S256x64_1_0_0_1_n_n.rhsIdx i q 0).val = (q ⟨0, by decide⟩).val :=
  dot_S256x1024_S1024x64_S256x64_1_0_0_1_n_n.rhsIdx_val_of_single rfl i q
theorem pv_rhs1 (i : S256x64.Idx) (q : dot_S256x1024_S1024x64_S256x64_1_0_0_1_n_n.contr.Idx) :
    (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-- Output: the weights times the value block, at `(r, d)`, is the sum over the 1024 keys. -/
theorem pv_apply (p : FVec Ideal S256x1024 .bf16) (v : FVec Ideal S1024x64 .bf16) (r : Fin 256) (d : Fin 64) :
    matmul dot_S256x1024_S1024x64_S256x64_1_0_0_1_n_n none p v (constant S256x64 .f32 0x00000000#32) (ix2 r d)
      = ∑ k : Fin 1024, p (ix2 r k) * v (ix2 k d) := by
  simp only [matmul]
  rw [Ideal.matmul_constant_zero_apply, ← Equiv.sum_comp (contrEquiv1 dot_S256x1024_S1024x64_S256x64_1_0_0_1_n_n 1024 rfl rfl).symm]
  refine Finset.sum_congr rfl fun k _ => ?_
  have hk := contrEquiv1_symm_val dot_S256x1024_S1024x64_S256x64_1_0_0_1_n_n 1024 rfl rfl k
  have el : dot_S256x1024_S1024x64_S256x64_1_0_0_1_n_n.lhsIdx (ix2 r d) ((contrEquiv1 dot_S256x1024_S1024x64_S256x64_1_0_0_1_n_n 1024 rfl rfl).symm k) = ix2 r k :=
    funext fun a => Fin.ext (by
      match a with
      | ⟨0, _⟩ => exact pv_lhs0 _ _
      | ⟨1, _⟩ => exact (pv_lhs1 _ _).trans hk)
  have er : dot_S256x1024_S1024x64_S256x64_1_0_0_1_n_n.rhsIdx (ix2 r d) ((contrEquiv1 dot_S256x1024_S1024x64_S256x64_1_0_0_1_n_n 1024 rfl rfl).symm k) = ix2 k d :=
    funext fun a => Fin.ext (by
      match a with
      | ⟨0, _⟩ => exact (pv_rhs0 _ _).trans hk
      | ⟨1, _⟩ => exact pv_rhs1 _ _)
  rw [el, er]

end Cert.Attn.Unmasked.Kernel

end
-- ==== Proof.UnmaskedKernel.lean ====
/-
  The kernel's unmasked payload read at one element (r, d) of the stored block: it is the attention row
  of the spec module applied to row `r` of the query block and to the key and value blocks. The payload
  is cut into its four stages (scaled scores, shifted exponentials, weights, output) and each stage is
  read at an index from the stage before it.
-/
import proofs.«104225_j17239998726826_2_alg».proof.Proof.UnmaskedKernelOps

noncomputable section

open scoped BigOperators

namespace Cert.Attn.Unmasked.Kernel

open Cert.KernelIdeal Cert.KernelIdeal.Gen Idealize.ShloMosaic Idealize.ShloMosaic.ValueIdx

/-! ## The payload's stages -/

/-- The scaled scores `(q · kᵀ) * 0.125` of the query block against the key block. -/
def sc (x0 : Vec Ideal S1x1x256x64 .f32) (x1 : Vec Ideal S1x1x1024x64 .f32) : FVec Ideal S256x1024 .f32 :=
  mulf
    (matmul dot_S256x64_S1024x64_S256x1024_1_1_0_0_n_n none
      (truncf .bf16 (shapeCast S256x64 x0 shapeCasts_S1x1x256x64_S256x64) bitsLt_bf16_f32)
      (truncf .bf16 (shapeCast S1024x64 x1 shapeCasts_S1x1x1024x64_S1024x64) bitsLt_bf16_f32)
      (constant S256x1024 .f32 0x00000000#32))
    (broadcast S256x1024 (Scalar.ofBits .f32 0x3E000000#32))

/-- The exponentials of the scores shifted by each row's maximum. -/
def ex (s : FVec Ideal S256x1024 .f32) : FVec Ideal S256x1024 .f32 :=
  exp (subf s
    (broadcastTo S256x1024
      (shapeCast S256x1 (multiReduction .maximumf [1] S256 s 0xFF800000#32 reduces_S256x1024_S256 (.inl rfl) rfl)
        shapeCasts_S256_S256x1)
      broadcasts_S256x1_S256x1024))

/-- The exponentials divided by each row's sum. -/
def wt (e : FVec Ideal S256x1024 .f32) : FVec Ideal S256x1024 .f32 :=
  divf e
    (broadcastTo S256x1024
      (shapeCast S256x1 (multiReduction .add [1] S256 e 0x00000000#32 reduces_S256x1024_S256 (.inl rfl) rfl)
        shapeCasts_S256_S256x1)
      broadcasts_S256x1_S256x1024)

/-- The weights times the value block, as the stored block. -/
def outv (w : FVec Ideal S256x1024 .f32) (x2 : Vec Ideal S1x1x1024x64 .f32) : FVec Ideal S1x1x256x64 .f32 :=
  shapeCast S1x1x256x64
    (matmul dot_S256x1024_S1024x64_S256x64_1_0_0_1_n_n none
      (truncf .bf16 w bitsLt_bf16_f32)
      (truncf .bf16 (shapeCast S1024x64 x2 shapeCasts_S1x1x1024x64_S1024x64) bitsLt_bf16_f32)
      (constant S256x64 .f32 0x00000000#32))
    shapeCasts_S256x64_S1x1x256x64

/-- The payload is the four stages composed. -/
theorem pay2_eq (x0 : Vec Ideal S1x1x256x64 .f32) (x1 x2 : Vec Ideal S1x1x1024x64 .f32) :
    k0_pay2 (F := Ideal) x0 x1 x2 = outv (wt (ex (sc x0 x1))) x2 := rfl

/-! ## Each stage at an index -/

theorem sc_at (x0 : Vec Ideal S1x1x256x64 .f32) (x1 : Vec Ideal S1x1x1024x64 .f32) (r : Fin 256) (k : Fin 1024) :
    sc x0 x1 (ix2 r k)
      = score (Ideal.ofBits .f32 0x3E000000#32) (fun d => x0 (ix4 (0 : Fin 1) (0 : Fin 1) r d))
          (fun k d => x1 (ix4 (0 : Fin 1) (0 : Fin 1) k d)) k := by
  unfold sc score
  show matmul dot_S256x64_S1024x64_S256x1024_1_1_0_0_n_n none _ _ _ (ix2 r k) * Ideal.ofBits .f32 0x3E000000#32 = _
  rw [qk_apply]
  refine congrArg (· * Ideal.ofBits .f32 0x3E000000#32) (Finset.sum_congr rfl fun d _ => ?_)
  exact congrArg₂ (· * ·) (cast_11ab_ab x0 _ r d) (cast_11ab_ab x1 _ k d)

theorem ex_at (s : FVec Ideal S256x1024 .f32) (r : Fin 256) (S : Fin 1024 → EReal) (hs : ∀ k, s (ix2 r k) = S k)
    (k : Fin 1024) : ex s (ix2 r k) = expw (Ideal.ofBits .f32 0xFF800000#32) S k := by
  have hS : (fun k => s (ix2 r k)) = S := funext hs
  unfold ex expw
  show Ideal.exp (s (ix2 r k) - broadcastTo S256x1024 _ _ (ix2 r k)) = _
  rw [col_apply]
  exact congrArg Ideal.exp (congrArg₂ (· - ·) (hs k)
    ((rowmax_apply s _ _ _ r).trans (congrArg (rowMax (Ideal.ofBits .f32 0xFF800000#32)) hS)))

theorem wt_at (e : FVec Ideal S256x1024 .f32) (r : Fin 256) (E : Fin 1024 → EReal) (he : ∀ k, e (ix2 r k) = E k)
    (k : Fin 1024) : wt e (ix2 r k) = Ideal.div (E k) (∑ k' : Fin 1024, E k') := by
  unfold wt
  show Ideal.div (e (ix2 r k)) (broadcastTo S256x1024 _ _ (ix2 r k)) = _
  rw [col_apply]
  exact congrArg₂ Ideal.div (he k) ((rowsum_apply e _ _ _ r).trans (Finset.sum_congr rfl fun k' _ => he k'))

theorem outv_at (w : FVec Ideal S256x1024 .f32) (x2 : Vec Ideal S1x1x1024x64 .f32) (r : Fin 256) (d : Fin 64)
    (W : Fin 1024 → EReal) (hw : ∀ k, w (ix2 r k) = W k) :
    outv w x2 (ix4 (0 : Fin 1) (0 : Fin 1) r d) = ∑ k : Fin 1024, W k * x2 (ix4 (0 : Fin 1) (0 : Fin 1) k d) := by
  unfold outv
  refine (cast_ab_11ab _ _ (0 : Fin 1) (0 : Fin 1) r d).trans ?_
  refine (pv_apply _ _ r d).trans ?_
  refine Finset.sum_congr rfl fun k _ => ?_
  exact congrArg₂ (· * ·) (hw k) (cast_11ab_ab x2 _ k d)

/-- The stored block at `(0, 0, r, d)` is the attention row of row `r` of the query block. -/
theorem pay2_at (x0 : Vec Ideal S1x1x256x64 .f32) (x1 x2 : Vec Ideal S1x1x1024x64 .f32) (r : Fin 256) (d : Fin 64) :
    k0_pay2 (F := Ideal) x0 x1 x2 (ix4 (0 : Fin 1) (0 : Fin 1) r d)
      = attnRow (Ideal.ofBits .f32 0x3E000000#32) (Ideal.ofBits .f32 0xFF800000#32)
          (fun d => x0 (ix4 (0 : Fin 1) (0 : Fin 1) r d)) (fun k d => x1 (ix4 (0 : Fin 1) (0 : Fin 1) k d))
          (fun k d => x2 (ix4 (0 : Fin 1) (0 : Fin 1) k d)) d := by
  have h1 := sc_at x0 x1 r
  have h2 := ex_at (sc x0 x1) r _ h1
  have h3 := wt_at (ex (sc x0 x1)) r _ h2
  rw [pay2_eq]
  exact outv_at (wt (ex (sc x0 x1))) x2 r d _ h3

end Cert.Attn.Unmasked.Kernel

end
-- ==== Proof.Unmasked.lean ====
/-
  The unmasked block: at a grid point (b, h, qi) whose batch has a zero mask word, the kernel's payload on the
  query tile `256 * qi .. 256 * qi + 255` of (b, h) and on the key and value matrices of (b, h) is, element by
  element, the reference's output on rows `256 * qi + r`. Both sides are the same attention row.
-/
import proofs.«104225_j17239998726826_2_alg».proof.Proof.UnmaskedRef
import proofs.«104225_j17239998726826_2_alg».proof.Proof.UnmaskedKernel

noncomputable section

namespace Cert.Attn.Unmasked

open Idealize.ShloMosaic Idealize.ShloMosaic.ValueIdx

/-- The payload against the reference at any row `row` of (b, h) whose 64 query entries the block's row `r` holds. -/
theorem unmasked_block_row
    (a0 a1 a2 : (⟨Cert.ReferenceIdeal.S8x16x1024x64, .f32⟩ : BufTy).Contents (Elt Ideal))
    (a3 : (⟨Cert.ReferenceIdeal.S8, .i1⟩ : BufTy).Contents (Elt Ideal)) (b : Fin 8) (h : Fin 16)
    (x0 : Vec Ideal Cert.KernelIdeal.S1x1x256x64 .f32) (x1 x2 : Vec Ideal Cert.KernelIdeal.S1x1x1024x64 .f32)
    (r : Fin 256) (row : Fin 1024)
    (hx0 : ∀ d : Fin 64, x0 (ix4 (0 : Fin 1) (0 : Fin 1) r d) = a0 (ix4 b h row d))
    (hx1 : ∀ (k : Fin 1024) (d : Fin 64), x1 (ix4 (0 : Fin 1) (0 : Fin 1) k d) = a1 (ix4 b h k d))
    (hx2 : ∀ (k : Fin 1024) (d : Fin 64), x2 (ix4 (0 : Fin 1) (0 : Fin 1) k d) = a2 (ix4 b h k d))
    (hm : a3 (ix1 b) = 0#1) (d : Fin 64) :
    Cert.KernelIdeal.Gen.k0_pay2 (F := Ideal) x0 x1 x2 (ix4 (0 : Fin 1) (0 : Fin 1) r d)
      = Cert.ReferenceIdeal.Read.val_main_v16 (F := Ideal) a0 a1 a2 a3 (ix4 b h row d) := by
  have e0 : (fun d => x0 (ix4 (0 : Fin 1) (0 : Fin 1) r d)) = fun d => a0 (ix4 b h row d) := funext hx0
  have e1 : (fun k d => x1 (ix4 (0 : Fin 1) (0 : Fin 1) k d)) = fun k d => a1 (ix4 b h k d) :=
    funext fun k => funext (hx1 k)
  have e2 : (fun k d => x2 (ix4 (0 : Fin 1) (0 : Fin 1) k d)) = fun k d => a2 (ix4 b h k d) :=
    funext fun k => funext (hx2 k)
  rw [Kernel.pay2_at x0 x1 x2 r d, Ref.out_at a0 a1 a2 a3 b h row hm d, e0, e1, e2]

/-- The same with the row spelt `qi * 256 + r`, as the query window's block sits in the array. -/
theorem unmasked_block
    (a0 a1 a2 : (⟨Cert.ReferenceIdeal.S8x16x1024x64, .f32⟩ : BufTy).Contents (Elt Ideal))
    (a3 : (⟨Cert.ReferenceIdeal.S8, .i1⟩ : BufTy).Contents (Elt Ideal)) (b : Fin 8) (h : Fin 16) (qi : Fin 4)
    (x0 : Vec Ideal Cert.KernelIdeal.S1x1x256x64 .f32) (x1 x2 : Vec Ideal Cert.KernelIdeal.S1x1x1024x64 .f32)
    (hx0 : ∀ (r : Fin 256) (d : Fin 64), x0 (ix4 (0 : Fin 1) (0 : Fin 1) r d)
      = a0 (ix4 b h (⟨qi.val * 256 + r.val, by have := qi.isLt; have := r.isLt; omega⟩ : Fin 1024) d))
    (hx1 : ∀ (k : Fin 1024) (d : Fin 64), x1 (ix4 (0 : Fin 1) (0 : Fin 1) k d) = a1 (ix4 b h k d))
    (hx2 : ∀ (k : Fin 1024) (d : Fin 64), x2 (ix4 (0 : Fin 1) (0 : Fin 1) k d) = a2 (ix4 b h k d))
    (hm : a3 (ix1 b) = 0#1) (r : Fin 256) (d : Fin 64) :
    Cert.KernelIdeal.Gen.k0_pay2 (F := Ideal) x0 x1 x2 (ix4 (0 : Fin 1) (0 : Fin 1) r d)
      = Cert.ReferenceIdeal.Read.val_main_v16 (F := Ideal) a0 a1 a2 a3
          (ix4 b h (⟨qi.val * 256 + r.val, by have := qi.isLt; have := r.isLt; omega⟩ : Fin 1024) d) :=
  unmasked_block_row a0 a1 a2 a3 b h x0 x1 x2 r _ (hx0 r) hx1 hx2 hm d

end Cert.Attn.Unmasked

end
-- ==== Proof.MaskedConsts.lean ====
/- The float constants of the fully-masked case, as the extended reals their words denote: the mask
   fill value -1e9 and the scale 1/8 (both finite reals), the averaging factor 2^-10 = 1/1024, and the
   two infinities. One module unfolds the word decoding so that the others only cite these equations. -/
import Idealize.ShloMosaic.PureOps.Ideal
import Idealize.ShloMosaic.PureOps.Ideal.Laws

noncomputable section

namespace Cert.Attn.Masked

open Idealize.ShloMosaic

/-- The mask fill word denotes the real -10^9. -/
theorem ofBits_fill : Ideal.ofBits .f32 0xCE6E6B28#32 = ((-1000000000 : ℝ) : EReal) := by
  simp [Ideal.ofBits, Ideal.ieee, -EReal.coe_mul]; norm_num

/-- The scale word denotes the real 1/8. -/
theorem ofBits_eighth : Ideal.ofBits .f32 0x3E000000#32 = (((1 : ℝ) / 8 : ℝ) : EReal) := by
  simp [Ideal.ofBits, Ideal.ieee, -EReal.coe_mul]; norm_num

/-- The averaging word denotes the real 1/1024. -/
theorem ofBits_inv1024 : Ideal.ofBits .f32 0x3A800000#32 = (((1 : ℝ) / 1024 : ℝ) : EReal) := by
  simp [Ideal.ofBits, Ideal.ieee, -EReal.coe_mul]; norm_num

/-- The word of minus infinity. -/
theorem ofBits_neg_inf : Ideal.ofBits .f32 0xFF800000#32 = ⊥ := by
  simp [Ideal.ofBits, Ideal.ieee]

/-- The word of plus infinity. -/
theorem ofBits_pos_inf : Ideal.ofBits .f32 0x7F800000#32 = ⊤ := by
  simp [Ideal.ofBits, Ideal.ieee]

/-- A finite sum of coerced reals is the coercion of the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Attn.Masked

end
-- ==== Proof.MaskedKernel.lean ====
/- The kernel's payload in the fully-masked case, read at one index: every row of the stored tile is the
   column sum of the value block times the averaging word (the mean over the 1024 keys). -/
import proofs.«104225_j17239998726826_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Masked

open Idealize.ShloMosaic Idealize.ShloMosaic.ValueIdx Cert.KernelIdeal

/-- The column sum of a [1024, 64] block, as the lane reduction over the rows computes it. -/
theorem colsum_apply (v : FVec Ideal S1024x64 .f32) (h : S1024x64.Reduces [0] S64) (hφ : FKind.Formats .f32)
    (hacc : (0x00000000#32 : BitVec 32) = FKind.add.neutral .f32 hφ) (d : Fin 64) :
    multiReduction .add [0] S64 v 0x00000000#32 h hφ hacc (ix1 d) = ∑ k : Fin 1024, v (ix2 k d) := by
  refine (Ideal.multiReduction_add_single v 0x00000000#32 h hφ hacc (ix1 d)).trans ?_
  refine Finset.sum_congr rfl fun k _ => congrArg v (funext fun a => Fin.ext ?_)
  match a with
  | ⟨0, _⟩ => rfl
  | ⟨1, _⟩ => rfl

/-- The masked payload at row r, column d: the sum over the keys of the value block's column d, times
    the averaging word; the row r does not enter. -/
theorem pay1_apply (x2 : Vec Ideal S1x1x1024x64 .f32) (r : Fin 256) (d : Fin 64) :
    Cert.KernelIdeal.Gen.k0_pay1 (F := Ideal) x2 (ix4 (0 : Fin 1) (0 : Fin 1) r d)
      = (∑ k : Fin 1024, x2 (ix4 (0 : Fin 1) (0 : Fin 1) k d)) * Ideal.ofBits .f32 0x3A800000#32 := by
  unfold Cert.KernelIdeal.Gen.k0_pay1
  refine (shapeCast_apply _ _ (ix4 (0 : Fin 1) (0 : Fin 1) r d) (ix2 r d) ?_).trans ?_
  · rw [Shape.rowMajor_val_four, Shape.rowMajor_val_two]
    show r.val * 64 + d.val = (((0 * 1 + 0) * 256 + r.val) * 64 + d.val)
    omega
  refine (broadcastTo_1b_ab_apply _ _ r d).trans ?_
  refine (congrFun (shapeCast_self _ _) _).trans ?_
  refine (mulf_apply _ _ _).trans ?_
  refine congrArg₂ (· * ·) ?_ rfl
  refine (shapeCast_a_1a_apply _ _ (0 : Fin 1) d).trans ?_
  refine (colsum_apply _ _ _ _ d).trans ?_
  refine Finset.sum_congr rfl fun k _ => ?_
  refine shapeCast_apply _ _ (ix2 k d) (ix4 (0 : Fin 1) (0 : Fin 1) k d) ?_
  rw [Shape.rowMajor_val_four, Shape.rowMajor_val_two]
  show (((0 * 1 + 0) * 1024 + k.val) * 64 + d.val) = k.val * 64 + d.val
  omega

end Cert.Attn.Masked

end
-- ==== Proof.MaskedRef.lean ====
/- The reference's attention in a batch whose mask word is one, one operation at a time: the select
   puts the fill constant at every key, so the scaled scores are one real constant c along each row;
   the row maximum is c, c - c = 0, exp 0 = 1, the denominator is 1024, and the softmax weights are
   uniformly 1/1024, whatever the queries and keys; the entry is the uniform average of the value column. -/
import proofs.«104225_j17239998726826_2_alg».proof.Proof.Gen.ReferenceIdeal.Read
import proofs.«104225_j17239998726826_2_alg».proof.Proof.MaskedConsts
import Idealize.ShloMosaic.Lib.Pipeline.Value
import Idealize.ShloMosaic.Lib.ValueIdx
import Idealize.ShloMosaic.PureOps.Ideal.Laws

noncomputable section

namespace Cert.Attn.Masked
open Idealize.ShloMosaic Idealize.ShloMosaic.ValueIdx Cert.ReferenceIdeal Cert.ReferenceIdeal.Gen Cert.ReferenceIdeal.Read

variable (a0 a1 : (⟨S8x16x1024x64, .f32⟩ : BufTy).Contents (Elt Ideal)) (a3 : (⟨S8, .i1⟩ : BufTy).Contents (Elt Ideal))

/-- The maximum, from minus infinity, of a family constant on a nonempty index set is the constant. -/
theorem fold_max_const {ι : Type*} (s : Finset ι) (hs : s.Nonempty) (c : EReal) (f : ι → EReal)
    (hf : ∀ k ∈ s, f k = c) : s.fold max ⊥ f = c :=
  le_antisymm ((Finset.fold_max_le _).2 ⟨bot_le, fun x hx => (hf x hx).le⟩)
    ((Finset.le_fold_max _).2 (Or.inr ⟨hs.choose, hs.choose_spec, (hf _ hs.choose_spec).ge⟩))

/-- The scaled fill value: -10^9 / 8, a real. -/
def fillScaled : ℝ := (-1000000000 : ℝ) * ((1 : ℝ) / 8)

/-- Where the batch's mask word is one, the select picks the fill constant at every key. -/
theorem v2_masked (b : Fin 8) (h : Fin 16) (q k : Fin 1024) (hm : a3 (ix1 b) = 1#1) :
    val_main_v2 (F := Ideal) a0 a1 a3 (ix4 b h q k) = Ideal.ofBits .f32 0xCE6E6B28#32 := by
  rw [val_main_v2_apply, val_main_call0_v0_apply, val_main_v1_apply]
  have e : idx_main_v1 (idx_main_call0_v0 (ix4 b h q k)) = ix1 b :=
    funext fun a => Fin.ext (by match a with | ⟨0, _⟩ => rfl)
  rw [e, hm, select_one, val_main_call0_v1_apply, val_main_cst_apply]
  rfl

/-- The scaled scores of a masked batch are the one real constant. -/
theorem v4_masked (b : Fin 8) (h : Fin 16) (q k : Fin 1024) (hm : a3 (ix1 b) = 1#1) :
    val_main_v4 (F := Ideal) a0 a1 a3 (ix4 b h q k) = ((fillScaled : ℝ) : EReal) := by
  rw [val_main_v4_apply, v2_masked a0 a1 a3 b h q k hm, val_main_v3_apply, val_main_cst_0_apply,
    Ideal.ofBits_def, Ideal.mulf_def, ofBits_fill, ofBits_eighth, ← EReal.coe_mul]
  rfl

/-- The row maximum of a masked batch's scaled scores is that constant. -/
theorem v5_masked (b : Fin 8) (h : Fin 16) (q : Fin 1024) (hm : a3 (ix1 b) = 1#1) :
    val_main_v5 (F := Ideal) a0 a1 a3 (ix3 b h q) = ((fillScaled : ℝ) : EReal) := by
  unfold val_main_v5
  rw [Host.reduce_eq_fold_single FloatOps.maximumf _ _ reducesTo_S8x16x1024x1024_S8x16x1024_d3 (by decide) h_S_]
  rw [val_main_cst_1_apply, Ideal.ofBits_def, ofBits_neg_inf]
  refine fold_max_const _ ⟨(⟨0, by decide⟩ : Fin 1024), Finset.mem_univ _⟩ _ _ fun (k : Fin 1024) _ => ?_
  have e : (Shape.Reduces.lift (s := S8x16x1024x1024) (t := S8x16x1024) (a := 3) (by decide) (ix3 b h q) k : S8x16x1024x1024.Idx)
      = ix4 b h q k :=
    funext fun a => Fin.ext (by match a with | ⟨0, _⟩ => rfl | ⟨1, _⟩ => rfl | ⟨2, _⟩ => rfl | ⟨3, _⟩ => rfl)
  exact (congrArg (val_main_v4 (F := Ideal) a0 a1 a3) e).trans (v4_masked a0 a1 a3 b h q k hm)

/-- The running maximum against minus infinity is still that constant. -/
theorem v7_masked (b : Fin 8) (h : Fin 16) (q : Fin 1024) (hm : a3 (ix1 b) = 1#1) :
    val_main_v7 (F := Ideal) a0 a1 a3 (ix3 b h q) = ((fillScaled : ℝ) : EReal) := by
  rw [val_main_v7_apply, v5_masked a0 a1 a3 b h q hm, val_main_v6_apply, val_main_cst_2_apply, Ideal.ofBits_def,
    ofBits_neg_inf, Ideal.maximumf_def]
  exact max_eq_right bot_le

/-- The maximum broadcast back over the keys. -/
theorem v9_masked (b : Fin 8) (h : Fin 16) (q k : Fin 1024) (hm : a3 (ix1 b) = 1#1) :
    val_main_v9 (F := Ideal) a0 a1 a3 (ix4 b h q k) = ((fillScaled : ℝ) : EReal) := by
  rw [val_main_v9_apply, val_main_v8_apply]
  have e : idx_main_v8 (idx_main_v9 (ix4 b h q k)) = ix3 b h q :=
    funext fun a => Fin.ext (by match a with | ⟨0, _⟩ => rfl | ⟨1, _⟩ => rfl | ⟨2, _⟩ => rfl)
  rw [e, v7_masked a0 a1 a3 b h q hm]

/-- Every exponential of a masked batch is exp 0 = 1. -/
theorem v11_masked (b : Fin 8) (h : Fin 16) (q k : Fin 1024) (hm : a3 (ix1 b) = 1#1) :
    val_main_v11 (F := Ideal) a0 a1 a3 (ix4 b h q k) = 1 := by
  rw [val_main_v11_apply, val_main_v10_apply, v4_masked a0 a1 a3 b h q k hm, v9_masked a0 a1 a3 b h q k hm,
    Ideal.subf_def, Ideal.hostUnary_exp_def, ← EReal.coe_sub, sub_self, EReal.coe_zero]
  show Ideal.exp ((0 : ℝ) : EReal) = 1
  rw [Ideal.exp_coe, Real.exp_zero, EReal.coe_one]

/-- The denominator: 1024 ones. -/
theorem v12_masked (b : Fin 8) (h : Fin 16) (q : Fin 1024) (hm : a3 (ix1 b) = 1#1) :
    val_main_v12 (F := Ideal) a0 a1 a3 (ix3 b h q) = ((1024 : ℝ) : EReal) := by
  rw [val_main_v12_apply, val_main_cst_3_apply, Ideal.ofBits_def, Ideal.ofBits_zero_f32, zero_add]
  have e : ∀ k : Fin 1024, val_main_v11 (F := Ideal) a0 a1 a3 (idx_main_v12 (ix3 b h q) k) = (((1 : ℝ)) : EReal) := fun k => by
    have ei : idx_main_v12 (ix3 b h q) k = ix4 b h q k :=
      funext fun a => Fin.ext (by match a with | ⟨0, _⟩ => rfl | ⟨1, _⟩ => rfl | ⟨2, _⟩ => rfl | ⟨3, _⟩ => rfl)
    rw [ei, v11_masked a0 a1 a3 b h q k hm, EReal.coe_one]
  rw [Finset.sum_congr rfl fun k _ => e k, coe_sum, Finset.sum_const, Finset.card_univ, Fintype.card_fin]
  norm_num

/-- The softmax weights of a masked batch are uniform: 1/1024 at every key. -/
theorem v15_masked (b : Fin 8) (h : Fin 16) (q k : Fin 1024) (hm : a3 (ix1 b) = 1#1) :
    val_main_v15 (F := Ideal) a0 a1 a3 (ix4 b h q k) = (((1 : ℝ) / 1024 : ℝ) : EReal) := by
  rw [val_main_v15_apply, v11_masked a0 a1 a3 b h q k hm, val_main_v14_apply, val_main_v13_apply]
  have e : idx_main_v13 (idx_main_v14 (ix4 b h q k)) = ix3 b h q :=
    funext fun a => Fin.ext (by match a with | ⟨0, _⟩ => rfl | ⟨1, _⟩ => rfl | ⟨2, _⟩ => rfl)
  rw [e, v12_masked a0 a1 a3 b h q hm, Ideal.hostDivf_def, Ideal.div_coe (by norm_num), one_mul]

/-- The reference's entry for a masked batch: the uniform average of the value column. -/
theorem v16_masked (a2 : (⟨S8x16x1024x64, .f32⟩ : BufTy).Contents (Elt Ideal)) (b : Fin 8) (h : Fin 16) (q : Fin 1024) (d : Fin 64)
    (hm : a3 (ix1 b) = 1#1) :
    val_main_v16 (F := Ideal) a0 a1 a2 a3 (ix4 b h q d)
      = ∑ k : Fin 1024, (((1 : ℝ) / 1024 : ℝ) : EReal) * a2 (ix4 b h k d) := by
  rw [val_main_v16_apply]
  refine Finset.sum_congr rfl fun k _ => ?_
  have el : lidx_main_v16 (ix4 b h q d) k = ix4 b h q k :=
    funext fun a => Fin.ext (by match a with | ⟨0, _⟩ => rfl | ⟨1, _⟩ => rfl | ⟨2, _⟩ => rfl | ⟨3, _⟩ => rfl)
  have er : ridx_main_v16 (ix4 b h q d) k = ix4 b h k d :=
    funext fun a => Fin.ext (by match a with | ⟨0, _⟩ => rfl | ⟨1, _⟩ => rfl | ⟨2, _⟩ => rfl | ⟨3, _⟩ => rfl)
  rw [el, er, v15_masked a0 a1 a3 b h q k hm]

end Cert.Attn.Masked

end
-- ==== Proof.Masked.lean ====
/- The fully-masked case, kernel against reference at one index. Where a batch's mask word is one, the
   kernel stores the column mean of the value block (the column sum times 1/1024) in every row, and the
   reference's softmax weights are uniformly 1/1024, so its entry is the sum over the keys of 1/1024
   times the value entry. The two agree because every value entry is a real: the coercion leaves the sums
   and the product, and in the reals a constant factor moves through a finite sum. -/
import proofs.«104225_j17239998726826_2_alg».proof.Proof.MaskedConsts
import proofs.«104225_j17239998726826_2_alg».proof.Proof.MaskedKernel
import proofs.«104225_j17239998726826_2_alg».proof.Proof.MaskedRef

noncomputable section

namespace Cert.Attn.Masked

open Idealize.ShloMosaic Idealize.ShloMosaic.ValueIdx

/-- The masked block at any query row q of the array: the payload's entry (row r of the tile, column d)
    is the reference's entry at (b, h, q, d). -/
theorem masked_block_row
    (a0 a1 a2 : (⟨Cert.ReferenceIdeal.S8x16x1024x64, .f32⟩ : BufTy).Contents (Elt Ideal))
    (a3 : (⟨Cert.ReferenceIdeal.S8, .i1⟩ : BufTy).Contents (Elt Ideal)) (b : Fin 8) (h : Fin 16) (q : Fin 1024)
    (x2 : Vec Ideal Cert.KernelIdeal.S1x1x1024x64 .f32)
    (hx2 : ∀ (k : Fin 1024) (d : Fin 64), x2 (ix4 (0 : Fin 1) (0 : Fin 1) k d) = a2 (ix4 b h k d))
    (hm : a3 (ix1 b) = 1#1)
    (hfin : ∀ i, ∃ v : ℝ, a2 i = (v : EReal))
    (r : Fin 256) (d : Fin 64) :
    Cert.KernelIdeal.Gen.k0_pay1 (F := Ideal) x2 (ix4 (0 : Fin 1) (0 : Fin 1) r d)
      = Cert.ReferenceIdeal.Read.val_main_v16 (F := Ideal) a0 a1 a2 a3 (ix4 b h q d) := by
  rw [pay1_apply, v16_masked a0 a1 a3 a2 b h q d hm, ofBits_inv1024]
  choose v hv using hfin
  have hL : (∑ k : Fin 1024, x2 (ix4 (0 : Fin 1) (0 : Fin 1) k d))
      = ((∑ k : Fin 1024, v (ix4 b h k d) : ℝ) : EReal) := by
    rw [← coe_sum]
    exact Finset.sum_congr rfl fun k _ => (hx2 k d).trans (hv _)
  have hR : (∑ k : Fin 1024, (((1 : ℝ) / 1024 : ℝ) : EReal) * a2 (ix4 b h k d))
      = ((∑ k : Fin 1024, (1 : ℝ) / 1024 * v (ix4 b h k d) : ℝ) : EReal) := by
    rw [← coe_sum]
    exact Finset.sum_congr rfl fun k _ => by rw [hv, EReal.coe_mul]
  rw [hL, hR, ← EReal.coe_mul, Finset.sum_mul]
  exact congrArg _ (Finset.sum_congr rfl fun k _ => mul_comm _ _)

/-- The masked block at grid point (b, h, qi): row r of the tile is row qi * 256 + r of the array. -/
theorem masked_block
    (a0 a1 a2 : (⟨Cert.ReferenceIdeal.S8x16x1024x64, .f32⟩ : BufTy).Contents (Elt Ideal))
    (a3 : (⟨Cert.ReferenceIdeal.S8, .i1⟩ : BufTy).Contents (Elt Ideal)) (b : Fin 8) (h : Fin 16) (qi : Fin 4)
    (x2 : Vec Ideal Cert.KernelIdeal.S1x1x1024x64 .f32)
    (hx2 : ∀ (k : Fin 1024) (d : Fin 64), x2 (ix4 (0 : Fin 1) (0 : Fin 1) k d) = a2 (ix4 b h k d))
    (hm : a3 (ix1 b) = 1#1)
    (hfin : ∀ i, ∃ v : ℝ, a2 i = (v : EReal))
    (r : Fin 256) (d : Fin 64) :
    Cert.KernelIdeal.Gen.k0_pay1 (F := Ideal) x2 (ix4 (0 : Fin 1) (0 : Fin 1) r d)
      = Cert.ReferenceIdeal.Read.val_main_v16 (F := Ideal) a0 a1 a2 a3
          (ix4 b h (⟨qi.val * 256 + r.val, by have := qi.isLt; have := r.isLt; omega⟩ : Fin 1024) d) :=
  masked_block_row a0 a1 a2 a3 b h _ x2 hx2 hm hfin r d

end Cert.Attn.Masked

end
-- ==== Proof.Finite.lean ====
/- Finiteness of the value array from the printed precondition: the precondition is the conjunction of
   three "every entry has absolute value below plus infinity" tests; the third one, read back entry by
   entry, says every entry of the value array is a real. -/
import proofs.«104225_j17239998726826_2_alg».proof.Defs
import proofs.«104225_j17239998726826_2_alg».proof.Proof.Gen.Pre_finite_inputs
import proofs.«104225_j17239998726826_2_alg».proof.Proof.MaskedConsts
import Idealize.ShloMosaic.Lib.ReduceAll
import Idealize.ShloMosaic.Lib.ValueIdx
import Idealize.ShloMosaic.PureOps.Ideal.Laws

noncomputable section

namespace Cert.Attn.Finite

open Idealize.ShloMosaic Idealize.SL.Sem Idealize.ShloMosaic.ValueIdx Cert.Pre_finite_inputs Cert.Pre_finite_inputs.Gen

/-- The scalar shape has one index. -/
instance : Subsingleton S_.Idx := ⟨fun a b => funext fun d => d.elim0⟩

/-- A boolean's one-bit word is one exactly when the boolean is true. -/
theorem ofBool_eq_one {b : Bool} : BitVec.ofBool b = 1#1 ↔ b = true := by cases b <;> decide

/-- An extended real whose absolute value is below plus infinity is a real. -/
theorem real_of_abs_lt_top (x : EReal) (hx : max x (-x) < ⊤) : ∃ v : ℝ, x = (v : EReal) := by
  induction x using EReal.rec with
  | bot => simp at hx
  | top => simp at hx
  | coe r => exact ⟨r, rfl⟩

/-- If the printed predicate holds of four arrays, every entry of the third is a real. -/
theorem fn_finite2 (x0 x1 x2 : FVec Ideal S8x16x1024x64 .f32) (x3 : IVec S8 1)
    (hpre : Cert.Pre_finite_inputs.fn (F := Ideal) x0 x1 x2 x3 = fun _ => 1#1) (i : S8x16x1024x64.Idx) :
    ∃ v : ℝ, x2 i = (v : EReal) := by
  have h0 := congrFun hpre ix0
  dsimp only [Cert.Pre_finite_inputs.fn] at h0
  have h1 := (IntOp.andi_eq_one.1 h0).2
  have h2 := Host.reduce_andi_all _ _ _ _ ix0 h1 i
  have h3 : Ideal.cmp .olt (max (x2 i) (-(x2 i))) (Ideal.ofBits .f32 0x7F800000#32) = 1#1 := h2
  rw [Cert.Attn.Masked.ofBits_pos_inf] at h3
  have h4 : max (x2 i) (-(x2 i)) < ⊤ := by
    simpa [Ideal.cmp, ofBool_eq_one] using h3
  exact real_of_abs_lt_top _ h4

/-- From the precondition of the kernel's program: on every device, every entry of the value array
    (the third argument) is a real. -/
theorem finite_of_pre
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S8x16x1024x64.Idx) :
    ∃ v : ℝ, m ((c.tc : Thread Cert.KernelIdeal.nD Cert.KernelIdeal.τ).loc Cert.KernelIdeal.main_arg2) i = (v : EReal) :=
  fn_finite2 _ _ _ _ (hpre c) i

end Cert.Attn.Finite

end
-- ==== Proof.lean ====
/-
  Attention over Q, K, V : f32[8, 16, 1024, 64] with one mask bit per batch entry, tiled 256 query rows at a time,
  against its plain jnp reference — the five claims.

  Mathematics. For a batch entry whose mask bit is clear both programs compute, row by row, the softmax over the
  1024 keys of (Q Kᵀ)/8 and combine the rows of V with those weights: the same operations in the same order, so
  the two sides agree entry by entry on the extended reals with no appeal to finiteness. For a batch entry whose
  bit is set the reference replaces every score by one finite constant, so its softmax weights are all 1/1024 and
  its entry is the sum over k of V[k, d]/1024; the kernel instead sums the column of V and multiplies by 2⁻¹⁰.
  These agree because every entry of V is a real number (the precondition), where multiplication distributes
  over the sum.

  The three frames: each program's run ends without a fault and leaves Q, K, V and the mask as launched — for the
  kernel at either instance by the region's run (the body at a grid point is one of two straight-line runs, by
  the point's mask word), for the reference by its generated run. The kernel's idealization rewrote nothing, so
  there is no rewrite to justify. The equivalence: the kernel's result array after the run is the reference's
  function of the four launch arrays (the result's blocks tile the array and each is that function read through
  the block), which is what the reference's run ends at.
-/
import proofs.«104225_j17239998726826_2_alg».proof.Defs
import proofs.«104225_j17239998726826_2_alg».proof.Proof.Gen.Kernel
import proofs.«104225_j17239998726826_2_alg».proof.Proof.Gen.Kernel.Skeleton
import proofs.«104225_j17239998726826_2_alg».proof.Proof.Gen.Kernel.Launch
import proofs.«104225_j17239998726826_2_alg».proof.Proof.Gen.Kernel.Flash
import proofs.«104225_j17239998726826_2_alg».proof.Proof.Gen.KernelIdeal
import proofs.«104225_j17239998726826_2_alg».proof.Proof.Gen.KernelIdeal.Skeleton
import proofs.«104225_j17239998726826_2_alg».proof.Proof.Gen.KernelIdeal.Launch
import proofs.«104225_j17239998726826_2_alg».proof.Proof.Gen.KernelIdeal.Flash
import proofs.«104225_j17239998726826_2_alg».proof.Proof.Gen.ReferenceIdeal
import proofs.«104225_j17239998726826_2_alg».proof.Proof.Gen.Pre_finite_inputs
import proofs.«104225_j17239998726826_2_alg».proof.Proof.Gen.ReferenceIdeal.Run
import proofs.«104225_j17239998726826_2_alg».proof.Proof.Gen.ReferenceIdeal.Read
import proofs.«104225_j17239998726826_2_alg».proof.Proof.WordFrame
import proofs.«104225_j17239998726826_2_alg».proof.Proof.IdealValue
import proofs.«104225_j17239998726826_2_alg».proof.Proof.Unmasked
import proofs.«104225_j17239998726826_2_alg».proof.Proof.Masked
import proofs.«104225_j17239998726826_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel's run ends, faults nowhere, and leaves its arguments as launched. -/
theorem frame_kernel : Cert.frame_Kernel := fun m ρ _ => Cert.Kernel.Attn.frame m ρ

/-- So does the idealized kernel's. -/
theorem frame_ideal : Cert.frame_KernelIdeal := fun m ρ _ => Cert.KernelIdeal.Attn.frame m ρ

/-- So does the reference's: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on Q, K, V and the mask, both idealized programs end with the same result array: the
    reference's function of the launch arrays. -/
theorem algebraic : Cert.algebraic_KernelIdeal_ReferenceIdeal := by
  intro m ρ m' ρ' hpre hagree
  refine ⟨fun c => Cert.KernelIdeal.Attn.G m c,
    Cert.KernelIdeal.Attn.run m ρ Cert.Attn.Unmasked.unmasked_block Cert.Attn.Masked.masked_block (Cert.Attn.Finite.finite_of_pre m hpre), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
